-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg6 : FVec F S128x8 .f32) (main_arg7 : FVec F S128x8 .f32) (main_arg8 : FVec F S8 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x8 .f32 := Host.absf main_arg6
  let main_cst_6 : FVec F S_ .f32 := constant S_ .f32 0x7F800000#32
  let main_v20 : FVec F S128x8 .f32 := broadcastInDim S128x8 ![] bcast_S_S128x8 main_cst_6
  let main_v21 : IVec S128x8 1 := cmpf .olt main_v19 main_v20
  let main_c_7 : IVec S_ 1 := constantI S_ 1 1#1
  let main_v22 : IVec S_ 1 := (fun x v => Host.reduce IntOp.andi x v reducesTo_S128x8_S_d0_1 h_S_) main_v21 main_c_7
  let main_v23 : IVec S_ 1 := andi main_v18 main_v22
  let main_v24 : FVec F S128x8 .f32 := Host.absf main_arg7
  let main_cst_8 : FVec F S_ .f32 := constant S_ .f32 0x7F800000#32
  let main_v25 : FVec F S128x8 .f32 := broadcastInDim S128x8 ![] bcast_S_S128x8 main_cst_8
  let main_v26 : IVec S128x8 1 := cmpf .olt main_v24 main_v25
  let main_c_9 : IVec S_ 1 := constantI S_ 1 1#1
  let main_v27 : IVec S_ 1 := (fun x v => Host.reduce IntOp.andi x v reducesTo_S128x8_S_d0_1 h_S_) main_v26 main_c_9
  let main_v28 : IVec S_ 1 := andi main_v23 main_v27
  let main_v29 : FVec F S8 .f32 := Host.absf main_arg8
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x8 .f32) (main_arg7 : FVec F S128x8 .f32) (main_arg8 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x8 : Shape := ⟨2, ![100000, 8]⟩
abbrev S5000x128 : Shape := ⟨2, ![5000, 128]⟩
abbrev S5000x8 : Shape := ⟨2, ![5000, 8]⟩
abbrev S1600000x8 : Shape := ⟨2, ![1600000, 8]⟩
abbrev S1x8 : Shape := ⟨2, ![1, 8]⟩
abbrev S5000 : Shape := ⟨1, ![5000]⟩
abbrev S5000x1 : Shape := ⟨2, ![5000, 1]⟩

abbrev nBuf : Space → Nat
  | .hbm => 61
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x8, .f32⟩
  | .hbm, ⟨7, _⟩ => ⟨S128x8, .f32⟩
  | .hbm, ⟨8, _⟩ => ⟨S8, .f32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000, .i32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .i32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x8, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x8, .f32⟩
  | .hbm, ⟨55, _⟩ => ⟨S_, .f32⟩
  | .hbm, ⟨56, _⟩ => ⟨S100000x8, .f32⟩
  | .hbm, ⟨57, _⟩ => ⟨S1600000x1, .i32⟩
  | .hbm, ⟨58, _⟩ => ⟨S100000x8, .f32⟩
  | .hbm, ⟨59, _⟩ => ⟨S1x8, .f32⟩
  | .hbm, ⟨60, _⟩ => ⟨S100000x8, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x8, .f32⟩
  | .local _ .vmem, ⟨8, _⟩ => ⟨S5000x128, .f32⟩
  | .local _ .vmem, ⟨9, _⟩ => ⟨S5000x128, .f32⟩
  | .local _ .vmem, ⟨10, _⟩ => ⟨S5000x8, .f32⟩
  | .local _ .vmem, ⟨11, _⟩ => ⟨S5000x8, .f32⟩
  | .local _ .vmem, ⟨12, _⟩ => ⟨S5000x8, .f32⟩
  | .local _ .vmem, ⟨13, _⟩ => ⟨S5000x8, .f32⟩
  | .local _ .vmem, ⟨14, _⟩ => ⟨S5000x128, .f32⟩
  | .local _ .vmem, ⟨15, _⟩ => ⟨S5000x128, .f32⟩
  | .local _ .vmem, ⟨16, _⟩ => ⟨S128x8, .f32⟩
  | .local _ .vmem, ⟨17, _⟩ => ⟨S1x8, .f32⟩
  | .local _ .vmem, ⟨18, _⟩ => ⟨S5000x8, .f32⟩
  | .local _ .vmem, ⟨19, _⟩ => ⟨S5000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1_0 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26_0 : Ref sig .tc := ⟨.hbm, 44, rfl⟩
abbrev main_v26_1 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x8 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x8_S128x8_0_0 : ∀ a, (![0, 0] : Fin 2 → Nat) a + S128x8.size a ≤ S128x8.size a
  h_S128x8 : 0 < S128x8.numel
  inb_S5000x8_S5000x8_0_0 : ∀ a, (![0, 0] : Fin 2 → Nat) a + S5000x8.size a ≤ S5000x8.size a
  h_S5000x8 : 0 < S5000x8.numel
  bcast_S_S100000x8 : S_.BroadcastsInDim S100000x8 (![] : Fin 0 → Fin S100000x8.rank)
  shapeCasts_S8_S1x8 : S8.ShapeCasts S1x8
  shapeCasts_S5000x8_S5000x8 : S5000x8.ShapeCasts S5000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  reduces_S5000x8_S5000 : S5000x8.Reduces [1] S5000
  shapeCasts_S5000_S5000x1 : S5000.ShapeCasts S5000x1
  broadcasts_S5000x1_S5000x8 : S5000x1.Broadcasts S5000x8
  gather_S1600000_S1600000x1_S1600000_n_0_n_n_0_1_1_wf : GatherDims.WF S1600000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x8_S5000x8_1_0_0_1_n_n_wf : DotDims.WF S5000x128 S128x8 S5000x8 [1] [0] [0] [1] [] []
  gather_S100000x8_S1600000x1_S1600000x8_1_0_n_n_0_1_18_wf : GatherDims.WF S100000x8 S1600000x1 S1600000x8 [1] [0] [] [0] [] 1 ![1, 8]
  scatter_S100000x8_S1600000x1_S1600000x8_1_0_0_1_wf : ScatterDims.WF S100000x8 S1600000x1 S1600000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x8.size a ≤ S128x8.size a
  hwx0_5 : ∀ i : grid0.Coords, EltTy.bits .f32 = 32 ∨ (Rect.block (s := S128x8) S128x8.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x8.size a ≤ S100000x8.size a
  hwx0_7 : ∀ i : grid0.Coords, EltTy.bits .f32 = 32 ∨ (Rect.block (s := S100000x8) S5000x8.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x8.size a ≤ S100000x8.size a
  hwx1_0 : ∀ i : grid1.Coords, EltTy.bits .f32 = 32 ∨ (Rect.block (s := S100000x8) S5000x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x8.size a ≤ S128x8.size a
  hwx1_2 : ∀ i : grid1.Coords, EltTy.bits .f32 = 32 ∨ (Rect.block (s := S128x8) S128x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8.size a ≤ S1x8.size a
  hwx1_3 : ∀ i : grid1.Coords, EltTy.bits .f32 = 32 ∨ (Rect.block (s := S1x8) S1x8.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x8.size a ≤ S100000x8.size a
  hwx1_4 : ∀ i : grid1.Coords, EltTy.bits .f32 = 32 ∨ (Rect.block (s := S100000x8) S5000x8.size (cc1_transform_4 i) (hinb1_4 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S1600000_S1600000x1_S1600000_n_0_n_n_0_1_1 : GatherDims S1600000 S1600000x1 S1600000 where
  offsetDims := []
  collapsedSliceDims := [0]
  operandBatchingDims := []
  startIndicesBatchingDims := []
  startIndexMap := [0]
  indexVectorDim := 1
  sliceSizes := ![1]
  wf := gather_S1600000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x8_S5000x8_1_0_0_1_n_n : DotDims S5000x128 S128x8 S5000x8 where
  lhsContracting := [1]
  rhsContracting := [0]
  lhsNonContracting := [0]
  rhsNonContracting := [1]
  lhsBatch := []
  rhsBatch := []
  wf := dot_S5000x128_S128x8_S5000x8_1_0_0_1_n_n_wf
def gather_S100000x8_S1600000x1_S1600000x8_1_0_n_n_0_1_18 : GatherDims S100000x8 S1600000x1 S1600000x8 where
  offsetDims := [1]
  collapsedSliceDims := [0]
  operandBatchingDims := []
  startIndicesBatchingDims := []
  startIndexMap := [0]
  indexVectorDim := 1
  sliceSizes := ![1, 8]
  wf := gather_S100000x8_S1600000x1_S1600000x8_1_0_n_n_0_1_18_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v26_1) S5000x8.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v36) S5000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26_0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S1x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S5000x8.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x8 : Shape := ⟨2, ![128, 8]⟩
abbrev S8 : Shape := ⟨1, ![8]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x8 : Shape := ⟨2, ![100000, 8]⟩
abbrev S1x8 : Shape := ⟨2, ![1, 8]⟩
abbrev S100000 : Shape := ⟨1, ![100000]⟩
abbrev S100000x1 : Shape := ⟨2, ![100000, 1]⟩

abbrev nBuf : Space → Nat
  | .hbm => 65
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x8, .f32⟩
  | .hbm, ⟨7, _⟩ => ⟨S128x8, .f32⟩
  | .hbm, ⟨8, _⟩ => ⟨S8, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x8, .f32⟩
  | .hbm, ⟨45, _⟩ => ⟨S100000x8, .f32⟩
  | .hbm, ⟨46, _⟩ => ⟨S100000x8, .f32⟩
  | .hbm, ⟨47, _⟩ => ⟨S1x8, .f32⟩
  | .hbm, ⟨48, _⟩ => ⟨S100000x8, .f32⟩
  | .hbm, ⟨49, _⟩ => ⟨S100000x8, .f32⟩
  | .hbm, ⟨50, _⟩ => ⟨S_, .f32⟩
  | .hbm, ⟨51, _⟩ => ⟨S100000, .f32⟩
  | .hbm, ⟨52, _⟩ => ⟨S_, .f32⟩
  | .hbm, ⟨53, _⟩ => ⟨S100000, .f32⟩
  | .hbm, ⟨54, _⟩ => ⟨S100000, .f32⟩
  | .hbm, ⟨55, _⟩ => ⟨S100000x1, .f32⟩
  | .hbm, ⟨56, _⟩ => ⟨S100000x8, .f32⟩
  | .hbm, ⟨57, _⟩ => ⟨S100000x8, .f32⟩
  | .hbm, ⟨58, _⟩ => ⟨S100000x8, .f32⟩
  | .hbm, ⟨59, _⟩ => ⟨S_, .f32⟩
  | .hbm, ⟨60, _⟩ => ⟨S100000, .f32⟩
  | .hbm, ⟨61, _⟩ => ⟨S100000x1, .f32⟩
  | .hbm, ⟨62, _⟩ => ⟨S100000x1, .f32⟩
  | .hbm, ⟨63, _⟩ => ⟨S100000x8, .f32⟩
  | .hbm, ⟨64, _⟩ => ⟨S100000x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_cst : Ref sig .tc := ⟨.hbm, 28, rfl⟩
abbrev main_call0_v0 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call1_cst : Ref sig .tc := ⟨.hbm, 50, rfl⟩
abbrev main_call1_v0 : Ref sig .tc := ⟨.hbm, 51, rfl⟩
abbrev main_call1_cst_0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_v6 : Ref sig .tc := ⟨.hbm, 58, rfl⟩
abbrev main_call1_cst_1 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_v33 : Ref sig .tc := ⟨.hbm, 64, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  reducesTo_S100000x8_S100000_d1 : S100000x8.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x8_S100000x8_1_0_0_1_n_n_wf : DotDims.WF S100000x128 S128x8 S100000x8 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x8_S100000x8_1_0_0_1_n_n : DotDims S100000x128 S128x8 S100000x8 where
  lhsContracting := [1]
  rhsContracting := [0]
  lhsNonContracting := [0]
  rhsNonContracting := [1]
  lhsBatch := []
  rhsBatch := []
  wf := dot_S100000x128_S128x8_S100000x8_1_0_0_1_n_n_wf

class Facts : Prop extends Facts₀ where

variable [Facts]
-- ==== Proof.LibTypedRef.lean ====
/-
  A typed reference to a buffer (the handle an outlined function's operations use) moves contents between the value's
  type and the buffer's type along the equation of the two. Moving contents to the buffer's type and back gives them
  back unchanged, whatever the reference.
-/
import Idealize.ShloMosaic.Lib.StableHlo

namespace Cert.LibTypedRef

open Idealize.ShloMosaic Idealize.ShloMosaic.StableHlo

/-- Contents moved to a typed reference's buffer type and back are unchanged. -/
theorem ofBuf_toBuf {sig : RefSig} {T : BufTy} {Val : EltTy → Type} (x : TRef sig T) (v : T.Contents Val) :
    x.ofBuf (x.toBuf v) = v := by
  obtain ⟨ref, ty_eq, h1, h2⟩ := x
  subst ty_eq
  rfl

end Cert.LibTypedRef
-- ==== Proof.LibGatherFlatRows.lean ====
/-
  A `stablehlo.gather` that takes whole rows of an `[N, D]` table at a column `[E, 1]` of start indices — what
  `table[idx]` lowers to for a flat index array: offset_dims `[1]`, collapsed_slice_dims `[0]`, start_index_map
  `[0]`, index_vector_dim `1`, slice_sizes `[1, D]`. Result entry `(e, d)` is column `d` of the row named by start
  index `e`, read as a signed integer and clamped into `[0, N − 1]`. General over the extents and the element type.
-/
import Idealize.ShloMosaic.Lib.ValueIdx

noncomputable section

namespace Cert.LibGatherFlatRows

open Idealize.ShloMosaic Idealize.ShloMosaic.ValueIdx

variable {α : Type}

/-- Those dimension numbers for a table `[N, D]`, start indices `[E, 1]` and result `[E, D]`; their conditions `wf` are
    decided on a program's literal shapes. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index names: the index word read signed, clamped into `[0, N − 1]`. -/
def rowOf {w : Nat} (N : Nat) (hN : 0 < N) (b : BitVec w) : Fin N := ⟨min b.toInt.toNat (N - 1), by omega⟩

/-- An axis of a rank-2 shape is its first or its second. -/
private theorem axis_cases (a : Fin 2) : a = 0 ∨ a = 1 := by fin_cases a <;> simp

/-- THE GATHER READ AT `(e, d)`: column `d` of the row the start index `idx[e, 0]` names. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (d : Fin D) :
    Host.gather (rowDims N D E wf) x idx (ix2 e d) = x (ix2 (rowOf N hN (idx (ix2 e (0 : Fin 1)))) d) := by
  unfold Host.gather
  congr 1
  funext a
  refine Fin.ext ?_
  show (rowDims N D E wf).start (ix2 e d) idx a + (rowDims N D E wf).batchCoord (ix2 e d) a
      + (rowDims N D E wf).offCoord (ix2 e d) a = _
  rw [GatherDims.batchCoord_eq_zero _ _ _ List.not_mem_nil]
  rcases axis_cases a with rfl | rfl
  ·
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e d) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  ·
    unfold GatherDims.start
    rw [dif_neg (show (1 : Fin 2) ∉ (rowDims N D E wf).startIndexMap from
      fun h => absurd (congrArg Fin.val (List.mem_singleton.mp h)) Nat.one_ne_zero)]
    simp only [Nat.zero_add]
    have hk : (1 : Fin 2) ∈ (rowDims N D E wf).sKept :=
      ((rowDims N D E wf).mem_sKept 1).mpr
        ⟨fun h => absurd (congrArg Fin.val (List.mem_singleton.mp h)) Nat.one_ne_zero, List.not_mem_nil⟩
    unfold GatherDims.offCoord
    rw [dif_pos hk]
    rfl

/-- The row does not depend on the column read: two such gathers at one column of start indices, of tables with the
    same number of rows, read the same row. -/
theorem gather_rows_row {N D D' E w : Nat} (hN : 0 < N)
    (wf : GatherDims.WF ⟨2, ![N, D]⟩ ⟨2, ![E, 1]⟩ ⟨2, ![E, D]⟩ [1] [0] [] [0] [] 1 ![1, D])
    (wf' : GatherDims.WF ⟨2, ![N, D']⟩ ⟨2, ![E, 1]⟩ ⟨2, ![E, D']⟩ [1] [0] [] [0] [] 1 ![1, D'])
    (x : (⟨2, ![N, D]⟩ : Shape).Idx → α) (x' : (⟨2, ![N, D']⟩ : Shape).Idx → α) (idx : IVec ⟨2, ![E, 1]⟩ w)
    (e : Fin E) (d : Fin D) (d' : Fin D') :
    ∃ r : Fin N, Host.gather (rowDims N D E wf) x idx (ix2 e d) = x (ix2 r d)
      ∧ Host.gather (rowDims N D' E wf') x' idx (ix2 e d') = x' (ix2 r d') :=
  ⟨rowOf N hN (idx (ix2 e (0 : Fin 1))), gather_rows_apply hN wf x idx e d, gather_rows_apply hN wf' x' idx e d'⟩

end Cert.LibGatherFlatRows

end
-- ==== Proof.Spec.lean ====
/-
  A two-layer graph network with sum aggregation, written as plain functions on the extended reals.

  Nodes are `Fin 100000`, edges `Fin 1600000`; an edge `e` carries a source word and a destination word. The
  source word is wrapped once when negative and then clamped into the table's rows (`srcRow`); the destination word is
  read signed and an edge whose destination is no node contributes nothing (`seg`). One layer adds, at node `n`,
  the rows of the sources of the edges into `n` (`seg`), multiplies that and the node's own row by two weight matrices
  and adds a bias (`hid`, with the rectifier; `logitsR` without). The result is the row-wise logarithm of the
  softmax of the second layer's rows (`lsm`).
-/
import Idealize.ShloMosaic.PureOps.Ideal
import Idealize.ShloMosaic.Lib.ValueIdx
import proofs.«142519_j32504312496300_2_alg».proof.Proof.LibGatherFlatRows

noncomputable section

namespace Cert.Sage

open Idealize.ShloMosaic Idealize.ShloMosaic.ValueIdx

/-- A matrix of extended reals over a literal shape. -/
abbrev Mat (a b : Nat) : Type := (⟨2, ![a, b]⟩ : Shape).Idx → EReal

/-- The value of the zero word. -/
abbrev zeroF : EReal := Ideal.ofBits .f32 0x00000000#32

/-- A negative index word wraps once by `n`: `w + n` when `w < 0` read signed, else `w`. -/
def wrap (n w : BitVec 32) : BitVec 32 := Scalar.select (IntOp.cmpi .slt w 0#32) (IntOp.addi w n) w

/-- The node whose row an edge's source word names: wrapped once, read signed, clamped into the rows. -/
def srcRow (src : Fin 1600000 → BitVec 32) (e : Fin 1600000) : Fin 100000 :=
  Cert.LibGatherFlatRows.rowOf 100000 (by decide) (wrap 100000#32 (src e))

/-- The sum, over the edges whose destination word read signed is node `n`, of `u`. -/
def seg (dst : Fin 1600000 → BitVec 32) (u : Fin 1600000 → EReal) (n : Fin 100000) : EReal :=
  ∑ e : Fin 1600000, if (dst e).toInt = (n.val : Int) then u e else 0

/-- Sum aggregation of a table's rows: at node `n` and column `d`, zero plus the sum of column `d` of the source
    rows of the edges into `n`. -/
def agg {D : Nat} (src dst : Fin 1600000 → BitVec 32) (T : Fin 100000 → Fin D → EReal) (n : Fin 100000) (d : Fin D) :
    EReal :=
  zeroF + seg dst (fun e => T (srcRow src e) d) n

/-- One dense layer with the rectifier, at node `n` and feature `j`:
    `max ((∑ₖ A n k · Wn k j + ∑ₖ X n k · Ws k j) + b j) 0`. -/
def hid (A X : Fin 100000 → Fin 128 → EReal) (Wn Ws : Mat 128 128) (b : Fin 128 → EReal) (n : Fin 100000)
    (j : Fin 128) : EReal :=
  max ((∑ k : Fin 128, A n k * Wn (ix2 k j) + ∑ k : Fin 128, X n k * Ws (ix2 k j)) + b j) zeroF

/-- A row times a `128 × 8` matrix. -/
def proj (H : Fin 100000 → Fin 128 → EReal) (W : Mat 128 8) (n : Fin 100000) (c : Fin 8) : EReal :=
  ∑ k : Fin 128, H n k * W (ix2 k c)

/-- The second layer as the reference groups it: `(agg(H) · Wn + H · Ws) + b`. -/
def logitsR (G H : Fin 100000 → Fin 128 → EReal) (Wn Ws : Mat 128 8) (b : Fin 8 → EReal) (n : Fin 100000)
    (c : Fin 8) : EReal :=
  (proj G Wn n c + proj H Ws n c) + b c

/-- The second layer as the kernel groups it: `(H · Ws + agg(H · Wn)) + b`. -/
def logitsK (P : Fin 100000 → Fin 8 → EReal) (H : Fin 100000 → Fin 128 → EReal) (Ws : Mat 128 8) (b : Fin 8 → EReal)
    (n : Fin 100000) (c : Fin 8) : EReal :=
  (proj H Ws n c + P n c) + b c

/-- The maximum of a row of eight, folded from the value of the word of minus infinity. -/
def rowMax (l : Fin 8 → EReal) : EReal :=
  (Finset.univ : Finset (Fin 8)).fold max (Ideal.ofBits .f32 0xFF800000#32) l

/-- The logarithm of the softmax of a row of eight, at entry `c`:
    `(l c − max l) − log (0 + ∑ exp (l c' − max l))`. -/
def lsm (l : Fin 8 → EReal) (c : Fin 8) : EReal :=
  (l c - rowMax l) - Ideal.log (zeroF + ∑ c' : Fin 8, Ideal.exp (l c' - rowMax l))

end Cert.Sage

end
-- ==== Proof.LibSegSum.lean ====
/-
  Three host operations on rows and flat index arrays, read at an entry; general over the extents.

  * A `stablehlo.scatter` with an adding body of float rows into an `[N, D]` operand at a column `[E, 1]` of
    destination indices (update_window_dims `[1]`, inserted_window_dims `[0]`, scatter_dims_to_operand_dims `[0]`,
    index_vector_dim `1`; what a segment sum lowers to), on the extended reals: entry `(n, k)` is the operand's entry
    plus the sum over the updates `e` whose index word read signed is `n` of the update's entry `(e, k)`.
  * A `stablehlo.gather` of single elements of a flat array `[M]` at a column `[E, 1]` of start indices
    (collapsed_slice_dims `[0]`, start_index_map `[0]`, index_vector_dim `1`, slice_sizes `[1]`; what `a[idx]` lowers
    to for flat arrays): entry `e` is the element the index word names, read signed and clamped into `[0, M − 1]`.
  * The second result of a stable sort of a key array carrying the iota of positions (an argsort): a bijection of the
    positions, as words.
-/
import Idealize.ShloMosaic.Lib.ValueIdx
import Idealize.ShloMosaic.Lib.SortFacts
import Idealize.ShloMosaic.PureOps.Ideal.Laws
import proofs.«142519_j32504312496300_2_alg».proof.Proof.LibGatherFlatRows

noncomputable section

namespace Cert.LibSegSum

open Idealize.ShloMosaic Idealize.ShloMosaic.ValueIdx

/-- The scatter's dimension numbers for an operand `[N, D]`, indices `[E, 1]` and updates `[E, D]`. -/
abbrev rowsDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An axis of a rank-2 shape is its first or its second. -/
private theorem axis_cases (a : Fin 2) : a = 0 ∨ a = 1 := by fin_cases a <;> simp

/-- A 32-bit word of a number below `2 ^ 31` reads that number, signed. -/
private theorem toInt_ofNat_lt {v : Nat} (hv : v < 2 ^ 31) : (BitVec.ofNat 32 v).toInt = (v : Int) := by
  rw [BitVec.toInt_eq_toNat_cond, BitVec.toNat_ofNat]
  have hm : v % 2 ^ 32 = v := Nat.mod_eq_of_lt (by omega)
  rw [hm]
  split <;> omega

section Rows
variable {N D E w : Nat} (wf : ScatterDims.WF ⟨2, ![N, D]⟩ ⟨2, ![E, 1]⟩ ⟨2, ![E, D]⟩ [1] [0] [0] 1)
  (idx : IVec ⟨2, ![E, 1]⟩ w) (e : Fin E) (k' : Fin D)

/-- The window of update `(e, k')` starts, on the row axis, at the index word `idx[e, 0]` read signed … -/
private theorem start_row :
    (rowsDims N D E wf).start (ix2 e k') idx (0 : Fin 2) = (idx (ix2 e (0 : Fin 1))).toInt := by
  unfold ScatterDims.start
  rw [dif_pos (show (0 : Fin 2) ∈ (rowsDims N D E wf).scatterDimsToOperandDims from List.mem_singleton.mpr rfl)]
  have hsi : (rowsDims N D E wf).siIdx (ix2 e k') ⟨List.idxOf (0 : Fin 2) (rowsDims N D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and, on the column axis, at `0`. -/
private theorem start_col : (rowsDims N D E wf).start (ix2 e k') idx (1 : Fin 2) = 0 := by
  unfold ScatterDims.start
  rw [dif_neg (show (1 : Fin 2) ∉ (rowsDims N D E wf).scatterDimsToOperandDims from
    fun h => absurd (congrArg Fin.val (List.mem_singleton.mp h)) Nat.one_ne_zero)]

/-- Its window coordinate is `0` on the row axis, an inserted one … -/
private theorem window_row : (rowsDims N D E wf).window (ix2 e k') (0 : Fin 2) = 0 := by
  unfold ScatterDims.window
  rw [dif_neg (show (0 : Fin 2) ∉ (rowsDims N D E wf).sKept from by
    simp [ScatterDims.sKept, Shape.kept])]

/-- … and the update's column on the column axis. -/
private theorem window_col : (rowsDims N D E wf).window (ix2 e k') (1 : Fin 2) = k'.val := by
  have hk : (1 : Fin 2) ∈ (rowsDims N D E wf).sKept := by
    simp [ScatterDims.sKept, Shape.kept]
  unfold ScatterDims.window
  rw [dif_pos hk]
  rfl

/-- Update `(e, k')` lands at `(n, k)` exactly when its index word read signed is `n` and `k' = k`. -/
private theorem resultIdx_rows (n : Fin N) (k : Fin D) :
    (rowsDims N D E wf).resultIdx? (ix2 e k') idx = some (ix2 n k)
      ↔ (idx (ix2 e (0 : Fin 1))).toInt = (n.val : Int) ∧ k' = k := by
  have hs0 := start_row wf idx e k'
  have hs1 := start_col wf idx e k'
  have hw0 := window_row wf e k'
  have hw1 := window_col wf e k'
  unfold ScatterDims.resultIdx?
  split
  · rename_i h
    rw [Option.some.injEq]
    constructor
    · intro hEq
      have h0 := congrArg Fin.val (congrFun hEq (0 : Fin 2))
      have h1 := congrArg Fin.val (congrFun hEq (1 : Fin 2))
      have hb := (h (0 : Fin 2)).1
      simp only [hs0, hw0] at h0 hb
      simp only [hs1, hw1] at h1
      refine ⟨?_, Fin.ext ?_⟩
      · have : ((idx (ix2 e (0 : Fin 1))).toInt + ((0 : Nat) : Int)).toNat = n.val := h0
        omega
      · have : ((0 : Int) + (k'.val : Int)).toNat = k.val := h1
        omega
    · rintro ⟨hn, rfl⟩
      funext a
      refine Fin.ext ?_
      rcases axis_cases a with rfl | rfl
      · show ((rowsDims N D E wf).start (ix2 e k') idx (0 : Fin 2) + ((rowsDims N D E wf).window (ix2 e k') (0 : Fin 2) : Int)).toNat = n.val
        rw [hs0, hw0, hn]; omega
      · show ((rowsDims N D E wf).start (ix2 e k') idx (1 : Fin 2) + ((rowsDims N D E wf).window (ix2 e k') (1 : Fin 2) : Int)).toNat = k'.val
        rw [hs1, hw1]; omega
  · rename_i h
    constructor
    · intro hEq; exact absurd hEq (by simp)
    · rintro ⟨hn, rfl⟩
      refine absurd (fun a => ?_) h
      rcases axis_cases a with rfl | rfl
      · rw [hs0, hw0, hn]
        have := n.isLt
        show (0 : Int) ≤ (n.val : Int) + ((0 : Nat) : Int) ∧ (n.val : Int) + ((0 : Nat) : Int) < ((N : Nat) : Int)
        omega
      · rw [hs1, hw1]
        have := k'.isLt
        show (0 : Int) ≤ (0 : Int) + (k'.val : Int) ∧ (0 : Int) + (k'.val : Int) < ((D : Nat) : Int)
        omega

end Rows

/-- THE ADDING SCATTER OF ROWS AT `(n, k)`, on the extended reals. -/
theorem scatterAdd_rows_apply {N D E w : Nat}
    (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (n : Fin N) (k : Fin D) :
    Host.scatterAdd (rowsDims N D E wf) x idx upd (ix2 n k)
      = x (ix2 n k) + ∑ e : Fin E, if (idx (ix2 e (0 : Fin 1))).toInt = (n.val : Int) then upd (ix2 e k) else 0 := by
  show x (ix2 n k) + ∑ j ∈ Finset.univ.filter (fun j => (rowsDims N D E wf).resultIdx? j idx = some (ix2 n k)), upd j = _
  congr 1
  rw [Finset.sum_filter, sum_idx2]
  refine Finset.sum_congr rfl fun e _ => ?_
  by_cases hn : (idx (ix2 e (0 : Fin 1))).toInt = (n.val : Int)
  · rw [if_pos hn, Finset.sum_eq_single k]
    · exact if_pos ((resultIdx_rows wf idx e k n k).mpr ⟨hn, rfl⟩)
    · intro k' _ hk
      exact if_neg fun h => hk ((resultIdx_rows wf idx e k' n k).mp h).2
    · intro h; exact absurd (Finset.mem_univ k) h
  · rw [if_neg hn]
    exact Finset.sum_eq_zero fun k' _ => if_neg fun h => hn ((resultIdx_rows wf idx e k' n k).mp h).1

/-- The gather's dimension numbers for a flat array `[M]`, indices `[E, 1]` and result `[E]`. -/
abbrev flatDims (M E : Nat) (wf : GatherDims.WF ⟨1, ![M]⟩ ⟨2, ![E, 1]⟩ ⟨1, ![E]⟩ [] [0] [] [0] [] 1 ![1]) :
    GatherDims ⟨1, ![M]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER AT `e`: the element the start index `idx[e, 0]` names. -/
theorem gather_flat_apply {α : Type} {M E w : Nat} (hM : 0 < M)
    (wf : GatherDims.WF ⟨1, ![M]⟩ ⟨2, ![E, 1]⟩ ⟨1, ![E]⟩ [] [0] [] [0] [] 1 ![1])
    (x : (⟨1, ![M]⟩ : Shape).Idx → α) (idx : IVec ⟨2, ![E, 1]⟩ w) (e : Fin E) :
    Host.gather (flatDims M E wf) x idx (ix1 e)
      = x (ix1 (Cert.LibGatherFlatRows.rowOf M hM (idx (ix2 e (0 : Fin 1))))) := by
  unfold Host.gather
  congr 1
  funext a
  obtain rfl : a = 0 := Subsingleton.elim _ _
  refine Fin.ext ?_
  show (flatDims M E wf).start (ix1 e) idx 0 + (flatDims M E wf).batchCoord (ix1 e) 0
      + (flatDims M E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims M E wf).startIndexMap from List.mem_singleton.mpr rfl)]
  have hsi : (flatDims M E wf).siIdx (ix1 e) ⟨List.idxOf (0 : Fin 1) (flatDims M E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On a rank-1 shape the second result of a two-operand stable sort along the one axis reads its operand through
    ONE self-map of the positions: the stable sorting permutation of the comparator on the pairs of words. -/
private theorem sort2_snd_rank1 {α β : Type} {E : Nat} (cmp : α × β → α × β → BitVec 1)
    (x : (⟨1, ![E]⟩ : Shape).Idx → α) (y : (⟨1, ![E]⟩ : Shape).Idx → β) (j : (⟨1, ![E]⟩ : Shape).Idx) :
    (Host.sort2 ⟨1, ![E]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- AN ARGSORT IS A BIJECTION OF THE POSITIONS: the second result of the stable sort, along its one axis, of any key
    array `x` paired with the iota of positions is `e ↦ the word of σ e` for a bijection `σ` of `Fin E`. -/
theorem sort2_iota_bijective {α : Type} {E : Nat} (cmp : α × BitVec 32 → α × BitVec 32 → BitVec 1)
    (x : (⟨1, ![E]⟩ : Shape).Idx → α) :
    ∃ σ : Fin E → Fin E, Function.Bijective σ ∧
      ∀ e : Fin E, (Host.sort2 ⟨1, ![E]⟩ 0 cmp x (iotaInDim ⟨1, ![E]⟩ 32 (0 : Fin 1))).2 (ix1 e)
        = BitVec.ofNat 32 (σ e).val := by
  refine ⟨sortedFrom (fun k k' => cmp (x (Shape.Idx.ofFin k), iotaInDim ⟨1, ![E]⟩ 32 (0 : Fin 1) (Shape.Idx.ofFin k))
      (x (Shape.Idx.ofFin k'), iotaInDim ⟨1, ![E]⟩ 32 (0 : Fin 1) (Shape.Idx.ofFin k')) == 1#1),
    ⟨sortedFrom_injective _, sortedFrom_surjective _⟩, fun e => ?_⟩
  rw [sort2_snd_rank1]
  rfl

/-- The word of a position below `2 ^ 31` is not negative read signed … -/
theorem not_slt_zero_ofNat {v : Nat} (hv : v < 2 ^ 31) : IntOp.cmpi .slt (BitVec.ofNat 32 v) 0#32 = 0#1 := by
  have h : (BitVec.ofNat 32 v).slt 0#32 = false := by
    rw [Bool.eq_false_iff, ne_eq, BitVec.slt_iff_toInt_lt, toInt_ofNat_lt hv]
    simp
  show BitVec.ofBool ((BitVec.ofNat 32 v).slt 0#32) = 0#1
  rw [h]
  rfl

/-- … and names that position: read signed and clamped into `[0, M − 1]` it is `v` when `v < M`. -/
theorem rowOf_ofNat {M v : Nat} (hM : 0 < M) (hv : v < M) (hM31 : M ≤ 2 ^ 31) :
    Cert.LibGatherFlatRows.rowOf M hM (BitVec.ofNat 32 v) = ⟨v, hv⟩ := by
  refine Fin.ext ?_
  show min (BitVec.ofNat 32 v).toInt.toNat (M - 1) = v
  rw [toInt_ofNat_lt (lt_of_lt_of_le hv hM31), Int.toNat_natCast]
  omega

end Cert.LibSegSum

end
-- ==== Proof.HostAgg.lean ====
/-
  The sum aggregation as the host programs spell it, read at an entry.

  Both programs aggregate a table `T` of `100000` rows with the same chain of host operations: the source words are
  wrapped once when negative (compare with zero, add `100000`, select), laid out as a column, used to gather rows of
  `T`; the gathered rows are added into a zero array at the destination words laid out as a column. Read at node
  `n` and column `d` this is zero plus the sum, over the edges whose destination word read signed is `n`, of column
  `d` of the edge's source row: `Cert.Sage.agg`.
-/
import Idealize.ShloMosaic.Lib.Pipeline.Value
import proofs.«142519_j32504312496300_2_alg».proof.Proof.Spec
import proofs.«142519_j32504312496300_2_alg».proof.Proof.LibSegSum

noncomputable section

namespace Cert.Sage

open Idealize.ShloMosaic Idealize.ShloMosaic.ValueIdx

/-- A flat array of words laid out as a column, read at `(e, 0)`. -/
theorem column_apply {E w : Nat} (hE : E ≠ 1)
    (hb : (⟨1, ![E]⟩ : Shape).BroadcastsInDim ⟨2, ![E, 1]⟩ (![0] : Fin 1 → Fin 2))
    (v : IVec ⟨1, ![E]⟩ w) (e : Fin E) :
    broadcastInDim ⟨2, ![E, 1]⟩ (![0] : Fin 1 → Fin 2) hb v (ix2 e (0 : Fin 1)) = v (ix1 e) :=
  broadcastInDim_apply _ hb v (ix2 e (0 : Fin 1)) (ix1 e) (fun a => match a with
    | ⟨0, _⟩ => by show e.val = if E = 1 then 0 else e.val; rw [if_neg hE])

/-- The wrapped source words, read at `e`. -/
theorem wrapped_apply {E : Nat}
    (hb : (⟨0, ![]⟩ : Shape).BroadcastsInDim ⟨1, ![E]⟩ (![] : Fin 0 → Fin 1))
    (n : BitVec 32) (src : IVec ⟨1, ![E]⟩ 32) (e : Fin E) :
    select (cmpi .slt src (broadcastInDim ⟨1, ![E]⟩ ![] hb (constantI ⟨0, ![]⟩ 32 0#32)))
        (addi src (broadcastInDim ⟨1, ![E]⟩ ![] hb (constantI ⟨0, ![]⟩ 32 n))) src (ix1 e)
      = wrap n (src (ix1 e)) := rfl

/-- THE AGGREGATION CHAIN AT `(n, d)`. -/
theorem aggChain_apply {D : Nat}
    (wfS : ScatterDims.WF ⟨2, ![100000, D]⟩ ⟨2, ![1600000, 1]⟩ ⟨2, ![1600000, D]⟩ [1] [0] [0] 1)
    (wfG : GatherDims.WF ⟨2, ![100000, D]⟩ ⟨2, ![1600000, 1]⟩ ⟨2, ![1600000, D]⟩ [1] [0] [] [0] [] 1 ![1, D])
    (hb0 : (⟨0, ![]⟩ : Shape).BroadcastsInDim ⟨2, ![100000, D]⟩ (![] : Fin 0 → Fin 2))
    (hbE : (⟨0, ![]⟩ : Shape).BroadcastsInDim ⟨1, ![1600000]⟩ (![] : Fin 0 → Fin 1))
    (hbc : (⟨1, ![1600000]⟩ : Shape).BroadcastsInDim ⟨2, ![1600000, 1]⟩ (![0] : Fin 1 → Fin 2))
    (T : FVec Ideal ⟨2, ![100000, D]⟩ .f32) (src dst : IVec ⟨1, ![1600000]⟩ 32) (n : Fin 100000) (d : Fin D) :
    Host.scatterAdd (Cert.LibSegSum.rowsDims 100000 D 1600000 wfS)
        (broadcastInDim ⟨2, ![100000, D]⟩ ![] hb0 (constant (F := Ideal) ⟨0, ![]⟩ .f32 0x00000000#32))
        (broadcastInDim ⟨2, ![1600000, 1]⟩ ![0] hbc dst)
        (Host.gather (Cert.LibGatherFlatRows.rowDims 100000 D 1600000 wfG) T
          (broadcastInDim ⟨2, ![1600000, 1]⟩ ![0] hbc
            (select (cmpi .slt src (broadcastInDim ⟨1, ![1600000]⟩ ![] hbE (constantI ⟨0, ![]⟩ 32 0#32)))
              (addi src (broadcastInDim ⟨1, ![1600000]⟩ ![] hbE (constantI ⟨0, ![]⟩ 32 100000#32))) src)))
        (ix2 n d)
      = agg (fun e => src (ix1 e)) (fun e => dst (ix1 e)) (fun n d => T (ix2 n d)) n d := by
  rw [Cert.LibSegSum.scatterAdd_rows_apply]
  unfold agg seg
  refine congrArg₂ (· + ·) rfl (Finset.sum_congr rfl fun e _ => ?_)
  rw [column_apply (by decide) hbc dst e, Cert.LibGatherFlatRows.gather_rows_apply (by decide) wfG,
    column_apply (by decide) hbc _ e, wrapped_apply hbE 100000#32 src e]
  rfl

end Cert.Sage

end
-- ==== Proof.LibRowMin.lean ====
/-
  Minima along one axis on the extended reals, and the host's one-axis reductions of a matrix read at a row.
  A lane minimum over the second axis of a matrix, read at a row: the fold of `min`, from the value of the
  accumulator's pattern, over that row's entries. A host reduction by minimum or by maximum over the second axis of an
  `[a, b]` matrix, read at row `r`: the fold, from the initial value, over that row's entries. General in the extents.
-/
import Idealize.ShloMosaic.Lib.ValueIdx
import Idealize.ShloMosaic.PureOps.Ideal.Laws

noncomputable section

namespace Cert.LibRowMin

open Idealize.ShloMosaic Idealize.ShloMosaic.ValueIdx

/-- On the extended reals a lane minimum over ONE axis is, at a reduced index, the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- On the extended reals a lane minimum over the second axis of an `[a, b]` matrix is, at row `r`, the fold of `min`
    from the accumulator's value over that row's entries. -/
theorem multiReduction_minimumf_rows {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.minimumf.neutral .f32 hφ) (r : Fin a) :
    multiReduction .minimumf [1] ⟨1, ![a]⟩ src acc h hφ hacc (ix1 r)
      = (Finset.univ : Finset (Fin b)).fold min (Ideal.ofBits .f32 acc) (fun d => src (ix2 r d)) := by
  refine (multiReduction_minimumf_single src acc h hφ hacc (ix1 r)).trans ?_
  refine congrArg (fun f => (Finset.univ : Finset (Fin b)).fold min (Ideal.ofBits .f32 acc) f) (funext fun d => ?_)
  refine congrArg src (funext fun ax => Fin.ext ?_)
  match ax with
  | ⟨0, _⟩ => rfl
  | ⟨1, _⟩ => rfl

/-- The host's reduction by minimum over the second axis of an `[a, b]` matrix, read at row `r`: the fold of `min` from the
    initial value over that row's entries. -/
theorem hostReduce_minimumf_rows {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.minimumf (F := Ideal) (φ := .f32)) x init h' hu (ix1 r)
      = (Finset.univ : Finset (Fin b)).fold min (init (Shape.Idx.first hu)) (fun d => x (ix2 r d)) := by
  refine (Host.reduce_eq_fold_single (FloatOps.minimumf (F := Ideal) (φ := .f32)) x init h' h hu (ix1 r)).trans ?_
  refine congrArg (fun f => (Finset.univ : Finset (Fin b)).fold min (init (Shape.Idx.first hu)) f) (funext fun d => ?_)
  refine congrArg x (funext fun ax => Fin.ext ?_)
  match ax with
  | ⟨0, _⟩ => rfl
  | ⟨1, _⟩ => rfl

/-- The host's reduction by maximum over the second axis of an `[a, b]` matrix, read at row `r`: the fold of `max` from the
    initial value over that row's entries. -/
theorem hostReduce_maximumf_rows {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun d => x (ix2 r d)) := by
  refine (Host.reduce_eq_fold_single (FloatOps.maximumf (F := Ideal) (φ := .f32)) x init h' h hu (ix1 r)).trans ?_
  refine congrArg (fun f => (Finset.univ : Finset (Fin b)).fold max (init (Shape.Idx.first hu)) f) (funext fun d => ?_)
  refine congrArg x (funext fun ax => Fin.ext ?_)
  match ax with
  | ⟨0, _⟩ => rfl
  | ⟨1, _⟩ => rfl

end Cert.LibRowMin

end
-- ==== Proof.RefSpec.lean ====
/-
  The reference, read one entry at a time, is the two-layer network of the specification: its first aggregation is
  `agg` of the input rows, its hidden layer `hid` of that, its second aggregation `agg` of the hidden rows, its
  second layer `logitsR`, and its result the logarithm of the softmax of each row (`lsm`); the maximum the softmax
  subtracts is joined once more with minus infinity, which changes nothing.
-/
import proofs.«142519_j32504312496300_2_alg».proof.Proof.RefRead
import proofs.«142519_j32504312496300_2_alg».proof.Proof.HostAgg
import proofs.«142519_j32504312496300_2_alg».proof.Proof.LibRowMin

noncomputable section

namespace Cert.Sage.Ref

open Cert.ReferenceIdeal Cert.ReferenceIdeal.Gen Cert.ReferenceIdeal.ReadP Idealize.ShloMosaic Idealize.ShloMosaic.ValueIdx
open Cert.Sage

variable (x0 : (⟨S100000x128, .f32⟩ : BufTy).Contents (Elt Ideal)) (x1 x2 : (⟨S1600000, .i32⟩ : BufTy).Contents (Elt Ideal))
  (x3 x4 : (⟨S128x128, .f32⟩ : BufTy).Contents (Elt Ideal)) (x5 : (⟨S128, .f32⟩ : BufTy).Contents (Elt Ideal))
  (x6 x7 : (⟨S128x8, .f32⟩ : BufTy).Contents (Elt Ideal)) (x8 : (⟨S8, .f32⟩ : BufTy).Contents (Elt Ideal))

/-- The input rows, the edge words and the two biases as plain functions. -/
abbrev X : Fin 100000 → Fin 128 → EReal := fun n k => x0 (ix2 n k)
abbrev src : Fin 1600000 → BitVec 32 := fun e => x1 (ix1 e)
abbrev dst : Fin 1600000 → BitVec 32 := fun e => x2 (ix1 e)
abbrev b1 : Fin 128 → EReal := fun j => x5 (ix1 j)
abbrev b2 : Fin 8 → EReal := fun c => x8 (ix1 c)

/-- The hidden layer of the specification. -/
abbrev H : Fin 100000 → Fin 128 → EReal := hid (agg (src x1) (dst x2) (X x0)) (X x0) x3 x4 (b1 x5)

/-- The first aggregation. -/
theorem agg1_apply (n : Fin 100000) (k : Fin 128) :
    val_main_v9 (F := Ideal) x0 x1 x2 (ix2 n k) = agg (src x1) (dst x2) (X x0) n k :=
  aggChain_apply (D := 128) scatter_S100000x128_S1600000x1_S1600000x128_1_0_0_1_wf
    gather_S100000x128_S1600000x1_S1600000x128_1_0_n_n_0_1_1128_wf bcast_S_S100000x128 bcast_S_S1600000
    bcast_S1600000_S1600000x1_0 x0 x1 x2 n k

/-- The hidden layer. -/
theorem hid_apply (n : Fin 100000) (j : Fin 128) :
    val_main_v16 (F := Ideal) x0 x1 x2 x3 x4 x5 (ix2 n j) = H x0 x1 x2 x3 x4 x5 n j := by
  have el : ∀ k, lidx_main_v10 (ix2 n j) k = ix2 n k := fun k => funext fun a => Fin.ext (by
    match a with | ⟨0, _⟩ => rfl | ⟨1, _⟩ => rfl)
  have er : ∀ k, ridx_main_v10 (ix2 n j) k = ix2 k j := fun k => funext fun a => Fin.ext (by
    match a with | ⟨0, _⟩ => rfl | ⟨1, _⟩ => rfl)
  have el' : ∀ k, lidx_main_v11 (ix2 n j) k = ix2 n k := fun k => funext fun a => Fin.ext (by
    match a with | ⟨0, _⟩ => rfl | ⟨1, _⟩ => rfl)
  have er' : ∀ k, ridx_main_v11 (ix2 n j) k = ix2 k j := fun k => funext fun a => Fin.ext (by
    match a with | ⟨0, _⟩ => rfl | ⟨1, _⟩ => rfl)
  have eb : idx_main_v13 (idx_main_v14 (ix2 n j)) = ix1 j := funext fun a => Fin.ext (by
    match a with | ⟨0, _⟩ => rfl)
  rw [val_main_v16_apply, val_main_v15_apply, val_main_v12_apply, val_main_v10_apply, val_main_v11_apply,
    val_main_v14_apply, val_main_v13_apply, val_main_call0_v0_apply, val_main_call0_cst_apply]
  simp only [el, er, el', er', eb, agg1_apply, Ideal.maximumf_def, Ideal.addf_def, Ideal.ofBits_def]
  rfl

/-- The second aggregation. -/
theorem agg2_apply (n : Fin 100000) (k : Fin 128) :
    val_main_v26 (F := Ideal) x0 x1 x2 x3 x4 x5 (ix2 n k) = agg (src x1) (dst x2) (H x0 x1 x2 x3 x4 x5) n k := by
  refine (aggChain_apply (D := 128) scatter_S100000x128_S1600000x1_S1600000x128_1_0_0_1_wf
    gather_S100000x128_S1600000x1_S1600000x128_1_0_n_n_0_1_1128_wf bcast_S_S100000x128 bcast_S_S1600000
    bcast_S1600000_S1600000x1_0 (val_main_v16 (F := Ideal) x0 x1 x2 x3 x4 x5) x1 x2 n k).trans ?_
  simp only [hid_apply]

/-- The second layer. -/
theorem logits_apply (n : Fin 100000) (c : Fin 8) :
    val_main_v32 (F := Ideal) x0 x1 x2 x3 x4 x5 x6 x7 x8 (ix2 n c)
      = logitsR (agg (src x1) (dst x2) (H x0 x1 x2 x3 x4 x5)) (H x0 x1 x2 x3 x4 x5) x6 x7 (b2 x8) n c := by
  have el : ∀ k, lidx_main_v27 (ix2 n c) k = ix2 n k := fun k => funext fun a => Fin.ext (by
    match a with | ⟨0, _⟩ => rfl | ⟨1, _⟩ => rfl)
  have er : ∀ k, ridx_main_v27 (ix2 n c) k = ix2 k c := fun k => funext fun a => Fin.ext (by
    match a with | ⟨0, _⟩ => rfl | ⟨1, _⟩ => rfl)
  have el' : ∀ k, lidx_main_v28 (ix2 n c) k = ix2 n k := fun k => funext fun a => Fin.ext (by
    match a with | ⟨0, _⟩ => rfl | ⟨1, _⟩ => rfl)
  have er' : ∀ k, ridx_main_v28 (ix2 n c) k = ix2 k c := fun k => funext fun a => Fin.ext (by
    match a with | ⟨0, _⟩ => rfl | ⟨1, _⟩ => rfl)
  have eb : idx_main_v30 (idx_main_v31 (ix2 n c)) = ix1 c := funext fun a => Fin.ext (by
    match a with | ⟨0, _⟩ => rfl)
  rw [val_main_v32_apply, val_main_v29_apply, val_main_v27_apply, val_main_v28_apply, val_main_v31_apply,
    val_main_v30_apply]
  simp only [el, er, el', er', eb, agg2_apply, hid_apply, Ideal.addf_def]
  rfl

/-- Joining a fold of maxima once more with the value it started from changes nothing. -/
theorem max_fold_self (a : EReal) (l : Fin 8 → EReal) :
    max a ((Finset.univ : Finset (Fin 8)).fold max a l) = (Finset.univ : Finset (Fin 8)).fold max a l :=
  max_eq_right ((Finset.le_fold_max a).mpr (Or.inl le_rfl))

/-- Reducing the second axis of a `100000 × 8` matrix leaves its rows. -/
theorem reduces_rows : (⟨2, ![100000, 8]⟩ : Shape).Reduces [1] ⟨1, ![100000]⟩ := by decide

/-- The row maximum the reference subtracts. -/
theorem rowMax_apply (n : Fin 100000) :
    val_main_call1_v2 (F := Ideal) x0 x1 x2 x3 x4 x5 x6 x7 x8 (ix1 n)
      = rowMax (fun c => val_main_v32 (F := Ideal) x0 x1 x2 x3 x4 x5 x6 x7 x8 (ix2 n c)) := by
  have h0 : val_main_call1_v0 (F := Ideal) x0 x1 x2 x3 x4 x5 x6 x7 x8 (ix1 n)
      = (Finset.univ : Finset (Fin 8)).fold max (val_main_call1_cst (F := Ideal) (Shape.Idx.first h_S_))
          (fun d => val_main_v32 (F := Ideal) x0 x1 x2 x3 x4 x5 x6 x7 x8 (ix2 n d)) :=
    Cert.LibRowMin.hostReduce_maximumf_rows (val_main_v32 (F := Ideal) x0 x1 x2 x3 x4 x5 x6 x7 x8)
      (val_main_call1_cst (F := Ideal)) reducesTo_S100000x8_S100000_d1 reduces_rows h_S_ n
  rw [val_main_call1_v2_apply, val_main_call1_v1_apply, val_main_call1_cst_0_apply, h0, val_main_call1_cst_apply]
  exact max_fold_self _ _

/-- The shifted row. -/
theorem shifted_apply (n : Fin 100000) (c : Fin 8) :
    val_main_call1_v5 (F := Ideal) x0 x1 x2 x3 x4 x5 x6 x7 x8 (ix2 n c)
      = val_main_v32 (F := Ideal) x0 x1 x2 x3 x4 x5 x6 x7 x8 (ix2 n c)
        - rowMax (fun c => val_main_v32 (F := Ideal) x0 x1 x2 x3 x4 x5 x6 x7 x8 (ix2 n c)) := by
  have e : idx_main_call1_v3 (idx_main_call1_v4 (ix2 n c)) = ix1 n := funext fun a => Fin.ext (by
    match a with | ⟨0, _⟩ => rfl)
  rw [val_main_call1_v5_apply, val_main_call1_v4_apply, val_main_call1_v3_apply, e, rowMax_apply]
  rfl

/-- THE REFERENCE'S RESULT AT `(n, c)`. -/
theorem result_apply (n : Fin 100000) (c : Fin 8) :
    val_main_v33 (F := Ideal) x0 x1 x2 x3 x4 x5 x6 x7 x8 (ix2 n c)
      = lsm (logitsR (agg (src x1) (dst x2) (H x0 x1 x2 x3 x4 x5)) (H x0 x1 x2 x3 x4 x5) x6 x7 (b2 x8) n) c := by
  have e : idx_main_call1_v8 (idx_main_call1_v10 (ix2 n c)) = ix1 n := funext fun a => Fin.ext (by
    match a with | ⟨0, _⟩ => rfl)
  have ek : ∀ k, idx_main_call1_v7 (ix1 n) k = ix2 n k := fun k => funext fun a => Fin.ext (by
    match a with | ⟨0, _⟩ => rfl | ⟨1, _⟩ => rfl)
  have hl : (fun c => val_main_v32 (F := Ideal) x0 x1 x2 x3 x4 x5 x6 x7 x8 (ix2 n c))
      = logitsR (agg (src x1) (dst x2) (H x0 x1 x2 x3 x4 x5)) (H x0 x1 x2 x3 x4 x5) x6 x7 (b2 x8) n :=
    funext fun c => logits_apply x0 x1 x2 x3 x4 x5 x6 x7 x8 n c
  have hsh : ∀ k : Fin 8, val_main_call1_v5 (F := Ideal) x0 x1 x2 x3 x4 x5 x6 x7 x8 (ix2 n k)
      = logitsR (agg (src x1) (dst x2) (H x0 x1 x2 x3 x4 x5)) (H x0 x1 x2 x3 x4 x5) x6 x7 (b2 x8) n k
        - rowMax (logitsR (agg (src x1) (dst x2) (H x0 x1 x2 x3 x4 x5)) (H x0 x1 x2 x3 x4 x5) x6 x7 (b2 x8) n) :=
    fun k => by rw [shifted_apply, hl, logits_apply]
  have hsum : ∀ k : Fin 8, val_main_call1_v6 (F := Ideal) x0 x1 x2 x3 x4 x5 x6 x7 x8 (idx_main_call1_v7 (ix1 n) k)
      = Ideal.exp (logitsR (agg (src x1) (dst x2) (H x0 x1 x2 x3 x4 x5)) (H x0 x1 x2 x3 x4 x5) x6 x7 (b2 x8) n k
        - rowMax (logitsR (agg (src x1) (dst x2) (H x0 x1 x2 x3 x4 x5)) (H x0 x1 x2 x3 x4 x5) x6 x7 (b2 x8) n)) :=
    fun k => by rw [ek k, val_main_call1_v6_apply, hsh k]; exact Ideal.hostUnary_exp_def _
  rw [val_main_v33_apply, val_main_call1_v10_apply, val_main_call1_v9_apply, val_main_call1_v8_apply, e,
    val_main_call1_v7_apply, Finset.sum_congr rfl (fun k _ => hsum k), hsh c, val_main_call1_cst_1_apply]
  generalize logitsR (agg (src x1) (dst x2) (H x0 x1 x2 x3 x4 x5)) (H x0 x1 x2 x3 x4 x5) x6 x7 (b2 x8) n = L
  unfold lsm zeroF
  rw [Ideal.subf_def, Ideal.hostUnary_log_def, Ideal.ofBits_def]

end Cert.Sage.Ref

end
-- ==== Proof.KernelRun.lean ====
/-
  The idealized kernel's run with its result named. Every weakly fair execution of the program terminates without a
  fault; the argument arrays end as launched, and the result array ends at the contents the last region's write-backs
  leave: the fold of the program's segments (two stretches of host operations, the first region, a stretch of host
  operations, the second region) from the launch memory, read at the result's buffer.
-/
import proofs.«142519_j32504312496300_2_alg».proof.Proof.Gen.KernelIdeal.Frame

set_option maxRecDepth 16384

noncomputable section

namespace Cert.Sage.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the program's five segments, the last thread state read against the final state; the result's
    buffer is among the unscoped buffers that state holds, at the last boundary's contents. -/
theorem run_result : θ_run defs (onTc (τ := τ) (main (F := F))) ⟨m, fun _ => 0, ρ⟩ (fun r => ∀ c : Dev nD,
      r.2.mem ((c.tc : Thread nD τ).loc main_v38) = W5 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v38 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

end Cert.Sage.KRun

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.Body0.lean ====
/-
  The first kernel's two stored values, read at an entry on the extended reals.

  The hidden layer's stored block at (r, j) is the rectifier of
  (Σₖ a (r, k) · wn (k, j) + Σₖ x (r, k) · ws (k, j)) + b (0, j); the projected block at (r, c) is the sum over k of
  that hidden entry (r, k) times w (k, c). Narrowing to the sixteen-bit format is the identity on extended reals.
-/
import proofs.«142519_j32504312496300_2_alg».proof.Proof.Gen.KernelIdeal.Skeleton
import proofs.«142519_j32504312496300_2_alg».proof.Proof.Spec
import proofs.«142519_j32504312496300_2_alg».proof.Proof.LibPlainMatmul
import proofs.«142519_j32504312496300_2_alg».proof.Proof.LibBlockLayout
import Idealize.ShloMosaic.Lib.Pipeline.Value

noncomputable section

open scoped BigOperators

namespace Cert.Sage.Regions

open Idealize.ShloMosaic Idealize.ShloMosaic.ValueIdx Cert.KernelIdeal Cert.KernelIdeal.Gen

/-- The printed contraction record of the 5000×128 by 128×128 product is the plain one. -/
theorem dot128_plain : dot_S5000x128_S128x128_S5000x128_1_0_0_1_n_n = DotDims.plain 5000 128 128 := rfl

/-- The printed contraction record of the 5000×128 by 128×8 product is the plain one. -/
theorem dot8_plain : dot_S5000x128_S128x8_S5000x8_1_0_0_1_n_n = DotDims.plain 5000 128 8 := rfl

/-- The hidden block at entry (r, j). -/
theorem hidden_apply (x0 x1 : Vec Ideal S5000x128 .f32) (x2 x3 : Vec Ideal S128x128 .f32) (x4 : Vec Ideal S1x128 .f32)
    (r : Fin 5000) (j : Fin 128) :
    k0_pay1 (F := Ideal) x0 x1 x2 x3 x4 (ix2 r j)
      = max ((∑ k : Fin 128, x0 (ix2 r k) * x2 (ix2 k j) + ∑ k : Fin 128, x1 (ix2 r k) * x3 (ix2 k j))
          + x4 (ix2 (0 : Fin 1) j)) Cert.Sage.zeroF := by
  unfold k0_pay1
  rw [shapeCast_self, shapeCast_self, maximumf_apply, addf_apply, addf_apply, broadcast_apply, dot128_plain]
  unfold matmul
  rw [Cert.LibPlainMatmul.matmul_zero_apply, Cert.LibPlainMatmul.matmul_zero_apply, Cert.LibBlockLayout.rowBroadcast_at]
  rfl

/-- The projected block at entry (r, c): the hidden block's row r times column c of the 128 × 8 matrix. -/
theorem projected_apply (x0 x1 : Vec Ideal S5000x128 .f32) (x2 x3 : Vec Ideal S128x128 .f32) (x4 : Vec Ideal S1x128 .f32)
    (x5 : Vec Ideal S128x8 .f32) (r : Fin 5000) (c : Fin 8) :
    k0_pay2 (F := Ideal) x0 x1 x2 x3 x4 x5 (ix2 r c)
      = ∑ k : Fin 128, k0_pay1 (F := Ideal) x0 x1 x2 x3 x4 (ix2 r k) * x5 (ix2 k c) := by
  unfold k0_pay2
  rw [dot8_plain]
  unfold matmul
  rw [Cert.LibPlainMatmul.matmul_zero_apply]
  rfl

end Cert.Sage.Regions

end
-- ==== Proof.Region0.lean ====
/-
  The first kernel region's two output arrays as functions of the arrays the region finds, entry by entry.

  Grid point t handles rows 5000·t … 5000·t + 4999 of the two row-blocked inputs and of both outputs, and sees the
  weights and the bias whole. So what point t writes back is block t of one whole-array function: at (n, j) the
  hidden layer of row n, and at (n, c) row n of the hidden layer times column c of the projection matrix. The blocks
  cover the rows (row n lies in block n / 5000), hence the arrays after the run are those functions.
-/
import proofs.«142519_j32504312496300_2_alg».proof.Proof.Gen.KernelIdeal.Frame
import proofs.«142519_j32504312496300_2_alg».proof.Proof.Body0
import Idealize.ShloMosaic.Lib.Pipeline.Value

noncomputable section

open scoped BigOperators

namespace Cert.Sage.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOff : (![0, 0] : Fin 2 → Nat) = fun _ => 0 := funext fun a => by fin_cases a <;> rfl

/-- The printed index maps over the grid: the row-blocked windows sit at block (t, 0), the whole-array windows at
    block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## The payloads over a block whose entries are the arrays' -/

/-- The hidden block at (r, j), when row r of the two row-blocked operands is row n of the arrays and the weights and the
    bias are the arrays'. -/
theorem hid_block (A X : S100000x128.Idx → EReal) (Wn Ws : S128x128.Idx → EReal) (B : S1x128.Idx → EReal)
    (x0 x1 : Vec Ideal S5000x128 .f32) (x2 x3 : Vec Ideal S128x128 .f32) (x4 : Vec Ideal S1x128 .f32)
    (r : Fin 5000) (j : Fin 128) (n : Fin 100000)
    (h0 : ∀ k : Fin 128, x0 (ix2 r k) = A (ix2 n k)) (h1 : ∀ k : Fin 128, x1 (ix2 r k) = X (ix2 n k))
    (h2 : ∀ (k g : Fin 128), x2 (ix2 k g) = Wn (ix2 k g)) (h3 : ∀ (k g : Fin 128), x3 (ix2 k g) = Ws (ix2 k g))
    (h4 : ∀ g : Fin 128, x4 (ix2 (0 : Fin 1) g) = B (ix2 (0 : Fin 1) g)) :
    k0_pay1 (F := Ideal) x0 x1 x2 x3 x4 (ix2 r j)
      = Cert.Sage.hid (fun n k => A (ix2 n k)) (fun n k => X (ix2 n k)) Wn Ws (fun g => B (ix2 (0 : Fin 1) g)) n j := by
  rw [hidden_apply]
  unfold Cert.Sage.hid
  simp only [h0, h1, h2, h3, h4]

/-- The projected block at (r, c), under the same hypotheses and the projection matrix the array's. -/
theorem proj_block (A X : S100000x128.Idx → EReal) (Wn Ws : S128x128.Idx → EReal) (B : S1x128.Idx → EReal)
    (W6 : S128x8.Idx → EReal)
    (x0 x1 : Vec Ideal S5000x128 .f32) (x2 x3 : Vec Ideal S128x128 .f32) (x4 : Vec Ideal S1x128 .f32)
    (x5 : Vec Ideal S128x8 .f32) (r : Fin 5000) (c' : Fin 8) (n : Fin 100000)
    (h0 : ∀ k : Fin 128, x0 (ix2 r k) = A (ix2 n k)) (h1 : ∀ k : Fin 128, x1 (ix2 r k) = X (ix2 n k))
    (h2 : ∀ (k g : Fin 128), x2 (ix2 k g) = Wn (ix2 k g)) (h3 : ∀ (k g : Fin 128), x3 (ix2 k g) = Ws (ix2 k g))
    (h4 : ∀ g : Fin 128, x4 (ix2 (0 : Fin 1) g) = B (ix2 (0 : Fin 1) g))
    (h5 : ∀ (k : Fin 128) (g : Fin 8), x5 (ix2 k g) = W6 (ix2 k g)) :
    k0_pay2 (F := Ideal) x0 x1 x2 x3 x4 x5 (ix2 r c')
      = Cert.Sage.proj (fun n k => Cert.Sage.hid (fun n k => A (ix2 n k)) (fun n k => X (ix2 n k)) Wn Ws
          (fun g => B (ix2 (0 : Fin 1) g)) n k) W6 n c' := by
  rw [projected_apply]
  unfold Cert.Sage.proj
  refine Finset.sum_congr rfl fun k _ => ?_
  rw [hid_block A X Wn Ws B x0 x1 x2 x3 x4 r k n h0 h1 h2 h3 h4, h5]

/-! ## The two output arrays as functions of the arrays the region finds -/

/-- The hidden-layer array: at (n, j) the rectified dense layer of row n. -/
def hidArr (A X : S100000x128.Idx → EReal) (Wn Ws : S128x128.Idx → EReal) (B : S1x128.Idx → EReal) :
    S100000x128.Idx → EReal :=
  fun i => Cert.Sage.hid (fun n k => A (ix2 n k)) (fun n k => X (ix2 n k)) Wn Ws (fun g => B (ix2 (0 : Fin 1) g)) (i 0) (i 1)

/-- The projected array: at (n, c) row n of the hidden layer times column c of the projection matrix. -/
def projArr (A X : S100000x128.Idx → EReal) (Wn Ws : S128x128.Idx → EReal) (B : S1x128.Idx → EReal)
    (W6 : S128x8.Idx → EReal) : S100000x8.Idx → EReal :=
  fun i => Cert.Sage.proj (fun n k => Cert.Sage.hid (fun n k => A (ix2 n k)) (fun n k => X (ix2 n k)) Wn Ws
    (fun g => B (ix2 (0 : Fin 1) g)) n k) W6 (i 0) (i 1)

/-- The hidden block at an entry y of the block, when the block's row is a row of the arrays and the column is kept. -/
theorem hid_block_idx (A X : S100000x128.Idx → EReal) (Wn Ws : S128x128.Idx → EReal) (B : S1x128.Idx → EReal)
    (x0 x1 : Vec Ideal S5000x128 .f32) (x2 x3 : Vec Ideal S128x128 .f32) (x4 : Vec Ideal S1x128 .f32)
    (y : S5000x128.Idx) (i : S100000x128.Idx)
    (h0 : ∀ k : Fin 128, x0 (ix2 (y 0 : Fin 5000) k) = A (ix2 (i 0 : Fin 100000) k))
    (h1 : ∀ k : Fin 128, x1 (ix2 (y 0 : Fin 5000) k) = X (ix2 (i 0 : Fin 100000) k))
    (h2 : ∀ (k g : Fin 128), x2 (ix2 k g) = Wn (ix2 k g)) (h3 : ∀ (k g : Fin 128), x3 (ix2 k g) = Ws (ix2 k g))
    (h4 : ∀ g : Fin 128, x4 (ix2 (0 : Fin 1) g) = B (ix2 (0 : Fin 1) g))
    (hj : (i 1).val = (y 1).val) :
    k0_pay1 (F := Ideal) x0 x1 x2 x3 x4 y = hidArr A X Wn Ws B i := by
  obtain ⟨r, j, rfl⟩ : ∃ (r : Fin 5000) (j : Fin 128), y = ix2 r j := ⟨y 0, y 1, eq_ix2 y⟩
  obtain ⟨n, g, rfl⟩ : ∃ (n : Fin 100000) (g : Fin 128), i = ix2 n g := ⟨i 0, i 1, eq_ix2 i⟩
  have hg : g = j := Fin.ext hj
  subst hg
  exact hid_block A X Wn Ws B x0 x1 x2 x3 x4 r g n h0 h1 h2 h3 h4

/-- The projected block at an entry y of the block, when the block's row is a row of the arrays and the column is kept. -/
theorem proj_block_idx (A X : S100000x128.Idx → EReal) (Wn Ws : S128x128.Idx → EReal) (B : S1x128.Idx → EReal)
    (W6 : S128x8.Idx → EReal)
    (x0 x1 : Vec Ideal S5000x128 .f32) (x2 x3 : Vec Ideal S128x128 .f32) (x4 : Vec Ideal S1x128 .f32)
    (x5 : Vec Ideal S128x8 .f32) (y : S5000x8.Idx) (i : S100000x8.Idx)
    (h0 : ∀ k : Fin 128, x0 (ix2 (y 0 : Fin 5000) k) = A (ix2 (i 0 : Fin 100000) k))
    (h1 : ∀ k : Fin 128, x1 (ix2 (y 0 : Fin 5000) k) = X (ix2 (i 0 : Fin 100000) k))
    (h2 : ∀ (k g : Fin 128), x2 (ix2 k g) = Wn (ix2 k g)) (h3 : ∀ (k g : Fin 128), x3 (ix2 k g) = Ws (ix2 k g))
    (h4 : ∀ g : Fin 128, x4 (ix2 (0 : Fin 1) g) = B (ix2 (0 : Fin 1) g))
    (h5 : ∀ (k : Fin 128) (g : Fin 8), x5 (ix2 k g) = W6 (ix2 k g))
    (hj : (i 1).val = (y 1).val) :
    k0_pay2 (F := Ideal) x0 x1 x2 x3 x4 x5 y = projArr A X Wn Ws B W6 i := by
  obtain ⟨r, j, rfl⟩ : ∃ (r : Fin 5000) (j : Fin 8), y = ix2 r j := ⟨y 0, y 1, eq_ix2 y⟩
  obtain ⟨n, g, rfl⟩ : ∃ (n : Fin 100000) (g : Fin 8), i = ix2 n g := ⟨i 0, i 1, eq_ix2 i⟩
  have hg : g = j := Fin.ext hj
  subst hg
  exact proj_block A X Wn Ws B W6 x0 x1 x2 x3 x4 x5 r g n h0 h1 h2 h3 h4 h5

/-! ## What each point writes back -/

/-- What point t writes back to the hidden-layer array is block t of `hidArr` of the arrays as the region finds them. -/
theorem flushed_hid (c : Dev nD) (t : Fin cfg0.N) :
    (dat0 (F := Ideal) V c).flushed 6 t = ((cfg0.win 6).blk t).view.read (Elt Ideal)
      (hidArr (V c main_v24) (V c main_arg0) (V c main_arg3) (V c main_arg4) (V c main_v25)) := by
  show (cfg0.win 6).cut (grid0.coords t) ((dat0 V c).after 6 t) = _
  rw [after0_6]
  unfold out0_6
  rw [View.canon_unit_zero zeroOff]
  simp only [View.ld_unit_zero (S := S5000x128) zeroOff, View.ld_unit_zero (S := S128x128) zeroOff,
    View.ld_unit_zero (S := S1x128) zeroOff]
  obtain ⟨e00, e01, e10, e11, e20, e21, e30, e31, e40, e41, e50, e51, e60, e61, e70, e71⟩ := idx_facts0 t
  funext y
  show k0_pay1 (F := Ideal) (iblk0 V c 0 t) (iblk0 V c 1 t) (iblk0 V c 2 t) (iblk0 V c 3 t) (iblk0 V c 4 t) y
    = hidArr (V c main_v24) (V c main_arg0) (V c main_arg3) (V c main_arg4) (V c main_v25)
        (((cfg0.win 6).blk t).view.emb y)
  refine hid_block_idx _ _ _ _ _ _ _ _ _ _ y (((cfg0.win 6).blk t).view.emb y) ?_ ?_ ?_ ?_ ?_ ?_
  · intro k
    show V c main_v24 (((cfg0.win 0).blk t).view.emb (ix2 (y 0 : Fin 5000) k))
      = V c main_v24 (ix2 ((((cfg0.win 6).blk t).view.emb y) 0 : Fin 100000) k)
    refine congrArg _ (funext fun a => Fin.ext ?_)
    match a with
    | ⟨0, _⟩ => show win0_0.index t (0 : Fin 2) * 5000 + 1 * (y 0).val = win0_6.index t (0 : Fin 2) * 5000 + 1 * (y 0).val; omega
    | ⟨1, _⟩ => show win0_0.index t (1 : Fin 2) * 128 + 1 * k.val = k.val; omega
  · intro k
    show V c main_arg0 (((cfg0.win 1).blk t).view.emb (ix2 (y 0 : Fin 5000) k))
      = V c main_arg0 (ix2 ((((cfg0.win 6).blk t).view.emb y) 0 : Fin 100000) k)
    refine congrArg _ (funext fun a => Fin.ext ?_)
    match a with
    | ⟨0, _⟩ => show win0_1.index t (0 : Fin 2) * 5000 + 1 * (y 0).val = win0_6.index t (0 : Fin 2) * 5000 + 1 * (y 0).val; omega
    | ⟨1, _⟩ => show win0_1.index t (1 : Fin 2) * 128 + 1 * k.val = k.val; omega
  · intro k g
    show V c main_arg3 (((cfg0.win 2).blk t).view.emb (ix2 k g)) = V c main_arg3 (ix2 k g)
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * g.val = g.val; omega
  · intro k g
    show V c main_arg4 (((cfg0.win 3).blk t).view.emb (ix2 k g)) = V c main_arg4 (ix2 k g)
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * g.val = g.val; omega
  · intro g
    show V c main_v25 (((cfg0.win 4).blk t).view.emb (ix2 (0 : Fin 1) g)) = V c main_v25 (ix2 (0 : Fin 1) g)
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * g.val = g.val; omega
  · show win0_6.index t (1 : Fin 2) * 128 + 1 * (y 1).val = (y 1).val; omega

/-- What point t writes back to the projected array is block t of `projArr` of the arrays as the region finds them. -/
theorem flushed_proj (c : Dev nD) (t : Fin cfg0.N) :
    (dat0 (F := Ideal) V c).flushed 7 t = ((cfg0.win 7).blk t).view.read (Elt Ideal)
      (projArr (V c main_v24) (V c main_arg0) (V c main_arg3) (V c main_arg4) (V c main_v25) (V c main_arg6)) := by
  show (cfg0.win 7).cut (grid0.coords t) ((dat0 V c).after 7 t) = _
  rw [after0_7]
  unfold out0_7
  rw [View.canon_unit_zero zeroOff]
  simp only [View.ld_unit_zero (S := S5000x128) zeroOff, View.ld_unit_zero (S := S128x128) zeroOff,
    View.ld_unit_zero (S := S1x128) zeroOff, View.ld_unit_zero (S := S128x8) zeroOff]
  obtain ⟨e00, e01, e10, e11, e20, e21, e30, e31, e40, e41, e50, e51, e60, e61, e70, e71⟩ := idx_facts0 t
  funext y
  show k0_pay2 (F := Ideal) (iblk0 V c 0 t) (iblk0 V c 1 t) (iblk0 V c 2 t) (iblk0 V c 3 t) (iblk0 V c 4 t)
      (iblk0 V c 5 t) y
    = projArr (V c main_v24) (V c main_arg0) (V c main_arg3) (V c main_arg4) (V c main_v25) (V c main_arg6)
        (((cfg0.win 7).blk t).view.emb y)
  refine proj_block_idx _ _ _ _ _ _ _ _ _ _ _ _ y (((cfg0.win 7).blk t).view.emb y) ?_ ?_ ?_ ?_ ?_ ?_ ?_
  · intro k
    show V c main_v24 (((cfg0.win 0).blk t).view.emb (ix2 (y 0 : Fin 5000) k))
      = V c main_v24 (ix2 ((((cfg0.win 7).blk t).view.emb y) 0 : Fin 100000) k)
    refine congrArg _ (funext fun a => Fin.ext ?_)
    match a with
    | ⟨0, _⟩ => show win0_0.index t (0 : Fin 2) * 5000 + 1 * (y 0).val = win0_7.index t (0 : Fin 2) * 5000 + 1 * (y 0).val; omega
    | ⟨1, _⟩ => show win0_0.index t (1 : Fin 2) * 128 + 1 * k.val = k.val; omega
  · intro k
    show V c main_arg0 (((cfg0.win 1).blk t).view.emb (ix2 (y 0 : Fin 5000) k))
      = V c main_arg0 (ix2 ((((cfg0.win 7).blk t).view.emb y) 0 : Fin 100000) k)
    refine congrArg _ (funext fun a => Fin.ext ?_)
    match a with
    | ⟨0, _⟩ => show win0_1.index t (0 : Fin 2) * 5000 + 1 * (y 0).val = win0_7.index t (0 : Fin 2) * 5000 + 1 * (y 0).val; omega
    | ⟨1, _⟩ => show win0_1.index t (1 : Fin 2) * 128 + 1 * k.val = k.val; omega
  · intro k g
    show V c main_arg3 (((cfg0.win 2).blk t).view.emb (ix2 k g)) = V c main_arg3 (ix2 k g)
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * g.val = g.val; omega
  · intro k g
    show V c main_arg4 (((cfg0.win 3).blk t).view.emb (ix2 k g)) = V c main_arg4 (ix2 k g)
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * g.val = g.val; omega
  · intro g
    show V c main_v25 (((cfg0.win 4).blk t).view.emb (ix2 (0 : Fin 1) g)) = V c main_v25 (ix2 (0 : Fin 1) g)
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * g.val = g.val; omega
  · intro k g
    show V c main_arg6 (((cfg0.win 5).blk t).view.emb (ix2 k g)) = V c main_arg6 (ix2 k g)
    refine congrArg _ (funext fun a => Fin.ext ?_)
    match a with
    | ⟨0, _⟩ => show win0_5.index t (0 : Fin 2) * 128 + 1 * k.val = k.val; omega
    | ⟨1, _⟩ => show win0_5.index t (1 : Fin 2) * 8 + 1 * g.val = g.val; omega
  · show win0_7.index t (1 : Fin 2) * 8 + 1 * (y 1).val = (y 1).val; omega

/-! ## From blocks to the arrays -/

/-- An index of the hidden-layer array is in point t's block iff each coordinate is in the block's range on its axis. -/
theorem mem_blk_hid (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v26_0).slice (win0_6.rect t)).set ↔ _
  rw [View.set_slice_whole, Rect.mem_set_unit]
  exact Iff.rfl

/-- An index of the projected array is in point t's block iff each coordinate is in the block's range on its axis. -/
theorem mem_blk_proj (t : Fin cfg0.N) (i : S100000x8.Idx) :
    i ∈ ((cfg0.win 7).blk t).view.set ↔ ∀ a : Fin 2, win0_7.index t a * S5000x8.size a ≤ (i a).val
      ∧ (i a).val < win0_7.index t a * S5000x8.size a + S5000x8.size a := by
  show i ∈ ((View.whole main_v26_1).slice (win0_7.rect t)).set ↔ _
  rw [View.set_slice_whole, Rect.mem_set_unit]
  exact Iff.rfl

/-- Row n lies in the block of point n / 5000: the blocks cover the hidden-layer array. -/
theorem cover_hid (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 5000 :=
    ⟨Fin.cast N_0.symm ⟨(i 0).val / 5000, by omega⟩, rfl⟩
  obtain ⟨e00, e01, e10, e11, e20, e21, e30, e31, e40, e41, e50, e51, e60, e61, e70, e71⟩ := idx_facts0 t
  refine ⟨t, flush0_6 t, ?_⟩
  rw [mem_blk_hid]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

/-- Row n lies in the block of point n / 5000: the blocks cover the projected array. -/
theorem cover_proj (i : S100000x8.Idx) :
    ∃ t : Fin cfg0.N, (cfg0.win 7).flush t = true ∧ i ∈ ((cfg0.win 7).blk t).view.set := by
  have hi0 : (i 0).val < 100000 := (i 0).isLt
  have hi1 : (i 1).val < 8 := (i 1).isLt
  obtain ⟨t, ht⟩ : ∃ t : Fin cfg0.N, t.val = (i 0).val / 5000 :=
    ⟨Fin.cast N_0.symm ⟨(i 0).val / 5000, by omega⟩, rfl⟩
  obtain ⟨e00, e01, e10, e11, e20, e21, e30, e31, e40, e41, e50, e51, e60, e61, e70, e71⟩ := idx_facts0 t
  refine ⟨t, flush0_7 t, ?_⟩
  rw [mem_blk_proj]
  intro a
  match a with
  | ⟨0, _⟩ =>
    show win0_7.index t (0 : Fin 2) * 5000 ≤ (i 0).val ∧ (i 0).val < win0_7.index t (0 : Fin 2) * 5000 + 5000
    omega
  | ⟨1, _⟩ =>
    show win0_7.index t (1 : Fin 2) * 8 ≤ (i 1).val ∧ (i 1).val < win0_7.index t (1 : Fin 2) * 8 + 8
    omega

/-- The hidden-layer array after the region is `hidArr` of the arrays the region finds. -/
theorem final_hid (c : Dev nD) :
    (dat0 (F := Ideal) V c).arrAt 6 cfg0.N
      = hidArr (V c main_v24) (V c main_arg0) (V c main_arg3) (V c main_arg4) (V c main_v25) :=
  (dat0 V c).arrAt_eq_of_cover 6 _ (fun t _ => flushed_hid V c t) cover_hid

/-- The projected array after the region is `projArr` of the arrays the region finds. -/
theorem final_proj (c : Dev nD) :
    (dat0 (F := Ideal) V c).arrAt 7 cfg0.N
      = projArr (V c main_v24) (V c main_arg0) (V c main_arg3) (V c main_arg4) (V c main_v25) (V c main_arg6) :=
  (dat0 V c).arrAt_eq_of_cover 7 _ (fun t _ => flushed_proj V c t) cover_proj

/-! ## The region's two results, entry by entry -/

/-- After the first region the hidden-layer array holds, at (n, j), the rectified dense layer of row n of the
    aggregate and of the features. -/
theorem region0_hid (c : Dev nD) (n : Fin 100000) (j : Fin 128) :
    (dat0 (F := Ideal) V c).arrAt 6 cfg0.N (ix2 n j)
      = Cert.Sage.hid (fun n k => V c main_v24 (ix2 n k)) (fun n k => V c main_arg0 (ix2 n k)) (V c main_arg3)
          (V c main_arg4) (fun g => V c main_v25 (ix2 (0 : Fin 1) g)) n j :=
  congrFun (final_hid V c) (ix2 n j)

/-- After the first region the projected array holds, at (n, c'), row n of that hidden layer times column c' of the
    projection matrix. -/
theorem region0_proj (c : Dev nD) (n : Fin 100000) (c' : Fin 8) :
    (dat0 (F := Ideal) V c).arrAt 7 cfg0.N (ix2 n c')
      = Cert.Sage.proj (fun n k => Cert.Sage.hid (fun n k => V c main_v24 (ix2 n k)) (fun n k => V c main_arg0 (ix2 n k))
          (V c main_arg3) (V c main_arg4) (fun g => V c main_v25 (ix2 (0 : Fin 1) g)) n k) (V c main_arg6) n c' :=
  congrFun (final_proj V c) (ix2 n c')

end Cert.Sage.Regions

end
-- ==== Proof.LibRowMax.lean ====
/-
  Maxima along one axis on the extended reals. A lane maximum over the second axis of a matrix, read at a row: the
  fold of `max`, from the value of the accumulator's pattern, over that row's entries. A host reduction by maximum over
  one axis, read at a result index: the fold of `max`, from the initial value, over that axis's coordinates.
  General in the shapes.
-/
import Idealize.ShloMosaic.Lib.ValueIdx
import Idealize.ShloMosaic.PureOps.Ideal.Laws

noncomputable section

namespace Cert.LibRowMax

open Idealize.ShloMosaic Idealize.ShloMosaic.ValueIdx

/-- On the extended reals a lane maximum over the second axis of an `[a, b]` matrix is, at row `r`, the fold of `max`
    from the accumulator's value over that row's entries. -/
theorem multiReduction_maximumf_rows {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun d => src (ix2 r d)) := by
  refine (Ideal.multiReduction_maximumf_single src acc h hφ hacc (ix1 r)).trans ?_
  refine congrArg (fun f => (Finset.univ : Finset (Fin b)).fold max (Ideal.ofBits .f32 acc) f) (funext fun d => ?_)
  refine congrArg src (funext fun ax => Fin.ext ?_)
  match ax with
  | ⟨0, _⟩ => rfl
  | ⟨1, _⟩ => rfl

/-- On the extended reals the host's reduction by maximum over ONE axis is, at a result index `j`, the fold of `max` from
    the initial value over that axis's coordinates (the index `j` with the coordinate inserted on the reduced axis). -/
theorem hostReduce_maximumf_single {s t u : Shape} {a : Fin s.rank} (x : s.Idx → EReal) (init : u.Idx → EReal)
    (h' : s.ReducesTo [a] t) (h : s.Reduces [a] t) (hu : 0 < u.numel) (j : t.Idx) :
    Host.reduce (FloatOps.maximumf (F := Ideal) (φ := .f32)) x init h' hu j
      = (Finset.univ : Finset (Fin (s.size a))).fold max (init (Shape.Idx.first hu)) (fun k => x (h.lift j k)) :=
  Host.reduce_eq_fold_single (FloatOps.maximumf (F := Ideal) (φ := .f32)) x init h' h hu j

end Cert.LibRowMax

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.Body1.lean ====
/-
  The second kernel's stored value, read at an entry on the extended reals.

  With l (r, c) = (Σₖ h (r, k) · w (k, c) + p (r, c)) + b (0, c) the logits of row r, the stored block at (r, c) is
  (l (r, c) − m) − log (Σ_d exp (l (r, d) − m)), m the maximum of row r folded from the value of the word of minus
  infinity: the logarithm of the softmax of the row. Narrowing to the sixteen-bit format is the identity on extended reals.
-/
import proofs.«142519_j32504312496300_2_alg».proof.Proof.Gen.KernelIdeal.Skeleton
import proofs.«142519_j32504312496300_2_alg».proof.Proof.Spec
import proofs.«142519_j32504312496300_2_alg».proof.Proof.LibPlainMatmul
import proofs.«142519_j32504312496300_2_alg».proof.Proof.LibBlockLayout
import proofs.«142519_j32504312496300_2_alg».proof.Proof.LibRowMax
import proofs.«142519_j32504312496300_2_alg».proof.Proof.LibKeepdims
import Idealize.ShloMosaic.Lib.Pipeline.Value

noncomputable section

open scoped BigOperators

namespace Cert.Sage.Regions

open Idealize.ShloMosaic Idealize.ShloMosaic.ValueIdx Cert.KernelIdeal Cert.KernelIdeal.Gen

/-- The printed contraction record of the 5000×128 by 128×8 product is the plain one. -/
theorem dotLogits_plain : dot_S5000x128_S128x8_S5000x8_1_0_0_1_n_n = DotDims.plain 5000 128 8 := rfl

/-- A logarithm of a block at an entry is the logarithm of the entry. -/
theorem log_at {s : Shape} (v : FVec Ideal s .f32) (i : s.Idx) : log v i = Ideal.log (v i) := rfl

/-- An exponential of a block at an entry is the exponential of the entry. -/
theorem exp_at {s : Shape} (v : FVec Ideal s .f32) (i : s.Idx) : exp v i = Ideal.exp (v i) := rfl

set_option backward.isDefEq.respectTransparency.types false in
/-- The tail of the body over a block of logits: the row-wise logarithm of the softmax. -/
theorem logSoftmaxRows_apply (L : FVec Ideal S5000x8 .f32) (r : Fin 5000) (c : Fin 8) :
    subf
      (subf L (broadcastTo S5000x8 (shapeCast S5000x1 (multiReduction .maximumf [1] S5000 L 0xFF800000#32 reduces_S5000x8_S5000 (.inl rfl) rfl) shapeCasts_S5000_S5000x1) broadcasts_S5000x1_S5000x8))
      (broadcastTo S5000x8 (log (shapeCast S5000x1 (multiReduction .add [1] S5000
        (exp (subf L (broadcastTo S5000x8 (shapeCast S5000x1 (multiReduction .maximumf [1] S5000 L 0xFF800000#32 reduces_S5000x8_S5000 (.inl rfl) rfl) shapeCasts_S5000_S5000x1) broadcasts_S5000x1_S5000x8)))
        0x00000000#32 reduces_S5000x8_S5000 (.inl rfl) rfl) shapeCasts_S5000_S5000x1)) broadcasts_S5000x1_S5000x8)
      (ix2 r c)
      = Cert.Sage.lsm (fun c2 => L (ix2 r c2)) c := by
  rw [subf_apply, subf_apply, Cert.LibKeepdims.broadcastTo_a1_ab_apply, Cert.LibKeepdims.broadcastTo_a1_ab_apply]
  have hm : multiReduction .maximumf [1] S5000 L 0xFF800000#32 reduces_S5000x8_S5000 (.inl rfl) rfl (ix1 r)
      = (Finset.univ : Finset (Fin 8)).fold max (Ideal.ofBits .f32 0xFF800000#32) (fun d => L (ix2 r d)) :=
    Cert.LibRowMax.multiReduction_maximumf_rows L _ _ _ _ r
  rw [Cert.LibKeepdims.shapeCast_a_a1_apply, log_at, Cert.LibKeepdims.shapeCast_a_a1_apply,
    Cert.LibKeepdims.multiReduction_add_rows]
  simp only [exp_at, subf_apply, Cert.LibKeepdims.broadcastTo_a1_ab_apply, Cert.LibKeepdims.shapeCast_a_a1_apply]
  rw [hm]
  simp only [Cert.Sage.lsm, Cert.Sage.rowMax, Cert.Sage.zeroF, Ideal.ofBits_zero_f32, zero_add]

/-- The block of logits at entry (r, c): (Σₖ h (r, k) · w (k, c) + p (r, c)) + b (0, c). -/
theorem logits_apply (x0 : Vec Ideal S5000x8 .f32) (x1 : Vec Ideal S5000x128 .f32) (x2 : Vec Ideal S128x8 .f32)
    (x3 : Vec Ideal S1x8 .f32) (r : Fin 5000) (c : Fin 8) :
    addf (addf (matmul dot_S5000x128_S128x8_S5000x8_1_0_0_1_n_n none (truncf .bf16 x1 bitsLt_bf16_f32)
        (truncf .bf16 x2 bitsLt_bf16_f32) (constant (F := Ideal) S5000x8 .f32 0x00000000#32)) x0)
        (broadcastTo S5000x8 x3 broadcasts_S1x8_S5000x8) (ix2 r c)
      = (∑ k : Fin 128, x1 (ix2 r k) * x2 (ix2 k c) + x0 (ix2 r c)) + x3 (ix2 (0 : Fin 1) c) := by
  rw [addf_apply, addf_apply, dotLogits_plain]
  unfold matmul
  rw [Cert.LibPlainMatmul.matmul_zero_apply, Cert.LibBlockLayout.rowBroadcast_at]
  rfl

/-- The stored block at entry (r, c): the logarithm of the softmax of row r of the logits, at c. -/
theorem logSoftmax_apply (x0 : Vec Ideal S5000x8 .f32) (x1 : Vec Ideal S5000x128 .f32) (x2 : Vec Ideal S128x8 .f32)
    (x3 : Vec Ideal S1x8 .f32) (r : Fin 5000) (c : Fin 8) :
    k1_pay1 (F := Ideal) x0 x1 x2 x3 (ix2 r c)
      = Cert.Sage.lsm (fun c2 => (∑ k : Fin 128, x1 (ix2 r k) * x2 (ix2 k c2) + x0 (ix2 r c2)) + x3 (ix2 (0 : Fin 1) c2)) c := by
  unfold k1_pay1
  rw [shapeCast_self, shapeCast_self, shapeCast_self]
  refine (logSoftmaxRows_apply _ r c).trans ?_
  exact congrArg (fun l => Cert.Sage.lsm l c) (funext fun c2 => logits_apply x0 x1 x2 x3 r c2)

end Cert.Sage.Regions

end
-- ==== Proof.Region1.lean ====
/-
  The second kernel region's output array as a function of the arrays the region finds, entry by entry.

  Grid point t handles rows 5000·t … 5000·t + 4999 of the aggregated projection, of the hidden layer and of the output,
  and sees the weights and the bias whole. So what point t writes back is block t of one whole-array function: at
  (n, c) the logarithm of the softmax of row n of the logits. The blocks cover the rows (row n lies in block
  n / 5000), hence the array after the run is that function.
-/
import proofs.«142519_j32504312496300_2_alg».proof.Proof.Gen.KernelIdeal.Frame
import proofs.«142519_j32504312496300_2_alg».proof.Proof.Body1
import Idealize.ShloMosaic.Lib.Pipeline.Value

noncomputable section

open scoped BigOperators

namespace Cert.Sage.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOff1 : (![0, 0] : Fin 2 → Nat) = fun _ => 0 := funext fun a => by fin_cases a <;> rfl

/-- The printed index maps over the grid: the row-blocked windows sit at block (t, 0), the whole-array windows at
    block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-! ## The payload over a block whose entries are the arrays' -/

/-- The stored block at (r, c'), when row r of the two row-blocked operands is row n of the arrays and the weights and the
    bias are the arrays'. -/
theorem lsm_block (P : S100000x8.Idx → EReal) (H : S100000x128.Idx → EReal) (Ws2 : S128x8.Idx → EReal)
    (B2 : S1x8.Idx → EReal)
    (x0 : Vec Ideal S5000x8 .f32) (x1 : Vec Ideal S5000x128 .f32) (x2 : Vec Ideal S128x8 .f32) (x3 : Vec Ideal S1x8 .f32)
    (r : Fin 5000) (c' : Fin 8) (n : Fin 100000)
    (h0 : ∀ g : Fin 8, x0 (ix2 r g) = P (ix2 n g)) (h1 : ∀ k : Fin 128, x1 (ix2 r k) = H (ix2 n k))
    (h2 : ∀ (k : Fin 128) (g : Fin 8), x2 (ix2 k g) = Ws2 (ix2 k g))
    (h3 : ∀ g : Fin 8, x3 (ix2 (0 : Fin 1) g) = B2 (ix2 (0 : Fin 1) g)) :
    k1_pay1 (F := Ideal) x0 x1 x2 x3 (ix2 r c')
      = Cert.Sage.lsm (fun c2 => Cert.Sage.logitsK (fun n g => P (ix2 n g)) (fun n k => H (ix2 n k)) Ws2
          (fun g => B2 (ix2 (0 : Fin 1) g)) n c2) c' := by
  rw [logSoftmax_apply]
  unfold Cert.Sage.logitsK Cert.Sage.proj
  simp only [h0, h1, h2, h3]

/-! ## The output array as a function of the arrays the region finds -/

/-- The output array: at (n, c) the logarithm of the softmax of row n of the logits. -/
def lsmArr (P : S100000x8.Idx → EReal) (H : S100000x128.Idx → EReal) (Ws2 : S128x8.Idx → EReal) (B2 : S1x8.Idx → EReal) :
    S100000x8.Idx → EReal :=
  fun i => Cert.Sage.lsm (fun c2 => Cert.Sage.logitsK (fun n g => P (ix2 n g)) (fun n k => H (ix2 n k)) Ws2
    (fun g => B2 (ix2 (0 : Fin 1) g)) (i 0) c2) (i 1)

/-- The stored block at an entry y of the block, when the block's row is a row of the arrays and the column is kept. -/
theorem lsm_block_idx (P : S100000x8.Idx → EReal) (H : S100000x128.Idx → EReal) (Ws2 : S128x8.Idx → EReal)
    (B2 : S1x8.Idx → EReal)
    (x0 : Vec Ideal S5000x8 .f32) (x1 : Vec Ideal S5000x128 .f32) (x2 : Vec Ideal S128x8 .f32) (x3 : Vec Ideal S1x8 .f32)
    (y : S5000x8.Idx) (i : S100000x8.Idx)
    (h0 : ∀ g : Fin 8, x0 (ix2 (y 0 : Fin 5000) g) = P (ix2 (i 0 : Fin 100000) g))
    (h1 : ∀ k : Fin 128, x1 (ix2 (y 0 : Fin 5000) k) = H (ix2 (i 0 : Fin 100000) k))
    (h2 : ∀ (k : Fin 128) (g : Fin 8), x2 (ix2 k g) = Ws2 (ix2 k g))
    (h3 : ∀ g : Fin 8, x3 (ix2 (0 : Fin 1) g) = B2 (ix2 (0 : Fin 1) g))
    (hj : (i 1).val = (y 1).val) :
    k1_pay1 (F := Ideal) x0 x1 x2 x3 y = lsmArr P H Ws2 B2 i := by
  obtain ⟨r, j, rfl⟩ : ∃ (r : Fin 5000) (j : Fin 8), y = ix2 r j := ⟨y 0, y 1, eq_ix2 y⟩
  obtain ⟨n, g, rfl⟩ : ∃ (n : Fin 100000) (g : Fin 8), i = ix2 n g := ⟨i 0, i 1, eq_ix2 i⟩
  have hg : g = j := Fin.ext hj
  subst hg
  exact lsm_block P H Ws2 B2 x0 x1 x2 x3 r g n h0 h1 h2 h3

/-! ## What each point writes back -/

/-- What point t writes back to the output array is block t of `lsmArr` of the arrays as the region finds them. -/
theorem flushed_lsm (c : Dev nD) (t : Fin cfg1.N) :
    (dat1 (F := Ideal) V c).flushed 4 t = ((cfg1.win 4).blk t).view.read (Elt Ideal)
      (lsmArr (V c main_v36) (V c main_v26_0) (V c main_arg7) (V c main_v37)) := by
  show (cfg1.win 4).cut (grid1.coords t) ((dat1 V c).after 4 t) = _
  rw [after1_4]
  unfold out1_4
  rw [View.canon_unit_zero zeroOff1]
  simp only [View.ld_unit_zero (S := S5000x8) zeroOff1, View.ld_unit_zero (S := S5000x128) zeroOff1,
    View.ld_unit_zero (S := S128x8) zeroOff1, View.ld_unit_zero (S := S1x8) zeroOff1]
  obtain ⟨e00, e01, e10, e11, e20, e21, e30, e31, e40, e41⟩ := idx_facts1 t
  funext y
  show k1_pay1 (F := Ideal) (iblk1 V c 0 t) (iblk1 V c 1 t) (iblk1 V c 2 t) (iblk1 V c 3 t) y
    = lsmArr (V c main_v36) (V c main_v26_0) (V c main_arg7) (V c main_v37) (((cfg1.win 4).blk t).view.emb y)
  refine lsm_block_idx _ _ _ _ _ _ _ _ y (((cfg1.win 4).blk t).view.emb y) ?_ ?_ ?_ ?_ ?_
  · intro g
    show V c main_v36 (((cfg1.win 0).blk t).view.emb (ix2 (y 0 : Fin 5000) g))
      = V c main_v36 (ix2 ((((cfg1.win 4).blk t).view.emb y) 0 : Fin 100000) g)
    refine congrArg _ (funext fun a => Fin.ext ?_)
    match a with
    | ⟨0, _⟩ => show win1_0.index t (0 : Fin 2) * 5000 + 1 * (y 0).val = win1_4.index t (0 : Fin 2) * 5000 + 1 * (y 0).val; omega
    | ⟨1, _⟩ => show win1_0.index t (1 : Fin 2) * 8 + 1 * g.val = g.val; omega
  · intro k
    show V c main_v26_0 (((cfg1.win 1).blk t).view.emb (ix2 (y 0 : Fin 5000) k))
      = V c main_v26_0 (ix2 ((((cfg1.win 4).blk t).view.emb y) 0 : Fin 100000) k)
    refine congrArg _ (funext fun a => Fin.ext ?_)
    match a with
    | ⟨0, _⟩ => show win1_1.index t (0 : Fin 2) * 5000 + 1 * (y 0).val = win1_4.index t (0 : Fin 2) * 5000 + 1 * (y 0).val; omega
    | ⟨1, _⟩ => show win1_1.index t (1 : Fin 2) * 128 + 1 * k.val = k.val; omega
  · intro k g
    show V c main_arg7 (((cfg1.win 2).blk t).view.emb (ix2 k g)) = V c main_arg7 (ix2 k g)
    refine congrArg _ (funext fun a => Fin.ext ?_)
    match a with
    | ⟨0, _⟩ => show win1_2.index t (0 : Fin 2) * 128 + 1 * k.val = k.val; omega
    | ⟨1, _⟩ => show win1_2.index t (1 : Fin 2) * 8 + 1 * g.val = g.val; omega
  · intro g
    show V c main_v37 (((cfg1.win 3).blk t).view.emb (ix2 (0 : Fin 1) g)) = V c main_v37 (ix2 (0 : Fin 1) g)
    refine congrArg _ (funext fun a => Fin.ext ?_)
    match a with
    | ⟨0, _⟩ => show win1_3.index t (0 : Fin 2) * 1 + 1 * 0 = 0; omega
    | ⟨1, _⟩ => show win1_3.index t (1 : Fin 2) * 8 + 1 * g.val = g.val; omega
  · show win1_4.index t (1 : Fin 2) * 8 + 1 * (y 1).val = (y 1).val; omega

/-! ## From blocks to the array -/

/-- An index of the output array is in point t's block iff each coordinate is in the block's range on its axis. -/
theorem mem_blk_lsm (t : Fin cfg1.N) (i : S100000x8.Idx) :
    i ∈ ((cfg1.win 4).blk t).view.set ↔ ∀ a : Fin 2, win1_4.index t a * S5000x8.size a ≤ (i a).val
      ∧ (i a).val < win1_4.index t a * S5000x8.size a + S5000x8.size a := by
  show i ∈ ((View.whole main_v38).slice (win1_4.rect t)).set ↔ _
  rw [View.set_slice_whole, Rect.mem_set_unit]
  exact Iff.rfl

/-- Row n lies in the block of point n / 5000: the blocks cover the output array. -/
theorem cover_lsm (i : S100000x8.Idx) :
    ∃ t : Fin cfg1.N, (cfg1.win 4).flush t = true ∧ i ∈ ((cfg1.win 4).blk t).view.set := by
  have hi0 : (i 0).val < 100000 := (i 0).isLt
  have hi1 : (i 1).val < 8 := (i 1).isLt
  obtain ⟨t, ht⟩ : ∃ t : Fin cfg1.N, t.val = (i 0).val / 5000 :=
    ⟨Fin.cast N_1.symm ⟨(i 0).val / 5000, by omega⟩, rfl⟩
  obtain ⟨e00, e01, e10, e11, e20, e21, e30, e31, e40, e41⟩ := idx_facts1 t
  refine ⟨t, flush1_4 t, ?_⟩
  rw [mem_blk_lsm]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 8 ≤ (i 1).val ∧ (i 1).val < win1_4.index t (1 : Fin 2) * 8 + 8
    omega

/-- The output array after the region is `lsmArr` of the arrays the region finds. -/
theorem final_lsm (c : Dev nD) :
    (dat1 (F := Ideal) V c).arrAt 4 cfg1.N
      = lsmArr (V c main_v36) (V c main_v26_0) (V c main_arg7) (V c main_v37) :=
  (dat1 V c).arrAt_eq_of_cover 4 _ (fun t _ => flushed_lsm V c t) cover_lsm

/-! ## The region's result, entry by entry -/

/-- After the second region the output array holds, at (n, c'), the logarithm of the softmax of row n of the logits
    (the hidden layer's row times the self weights, plus the aggregated projection's row, plus the bias). -/
theorem region1_lsm (c : Dev nD) (n : Fin 100000) (c' : Fin 8) :
    (dat1 (F := Ideal) V c).arrAt 4 cfg1.N (ix2 n c')
      = Cert.Sage.lsm (fun c2 => Cert.Sage.logitsK (fun n g => V c main_v36 (ix2 n g)) (fun n k => V c main_v26_0 (ix2 n k))
          (V c main_arg7) (fun g => V c main_v37 (ix2 (0 : Fin 1) g)) n c2) c' :=
  congrFun (final_lsm V c) (ix2 n c')

end Cert.Sage.Regions

end
-- ==== Proof.KernelHost.lean ====
/-
  The host side of the kernel program, read at an entry.

  Before its first region the kernel program sorts the destination words carrying the positions (an argsort), reads
  the source and the destination words through the sorted positions, and aggregates the input rows with the permuted
  words by the same chain of host operations as the reference; between its regions it aggregates the first region's
  second output in the same way. An argsort is a bijection `π` of the edges, the words of positions below `2 ^ 31`
  are not negative and name their positions, so the permuted words are `src ∘ π` and `dst ∘ π`; and a sum over the
  edges does not change when the edges are permuted: both aggregations are `agg` of the launch words. The arrays no
  host operation writes are read back to the launch memory, and a bias reshaped to one row is the bias.
-/
import proofs.«142519_j32504312496300_2_alg».proof.Proof.Gen.KernelIdeal.Frame
import proofs.«142519_j32504312496300_2_alg».proof.Proof.HostAgg
import proofs.«142519_j32504312496300_2_alg».proof.Proof.LibSegSum
import proofs.«142519_j32504312496300_2_alg».proof.Proof.LibTypedRef
import Idealize.ShloMosaic.Lib.StableHlo.Run
import Idealize.ShloMosaic.Lib.ValueLayout

noncomputable section

namespace Cert.Sage.KHost

open Cert.KernelIdeal Cert.KernelIdeal.Gen Idealize.ShloMosaic Idealize.ShloMosaic.TcCoe Idealize.SL.Sem
open Idealize.ShloMosaic.StableHlo Idealize.ShloMosaic.ValueIdx

/-! ## A sum over the edges does not depend on their order -/

/-- Aggregating with both word arrays read through one bijection of the edges is aggregating with the arrays. -/
theorem agg_perm {D : Nat} (π : Fin 1600000 → Fin 1600000) (hπ : Function.Bijective π)
    (src dst : Fin 1600000 → BitVec 32) (T : Fin 100000 → Fin D → EReal) (n : Fin 100000) (d : Fin D) :
    agg (fun e => src (π e)) (fun e => dst (π e)) T n d = agg src dst T n d := by
  unfold agg seg
  refine congrArg (zeroF + ·) ?_
  exact Function.Bijective.sum_comp hπ (fun e => if (dst e).toInt = (n.val : Int) then T (srcRow src e) d else 0)

/-! ## The words read through the sorted positions -/

/-- A position word wrapped once by the number of edges when negative. -/
abbrev wrapE (v : IVec S1600000 32) : IVec S1600000 32 :=
  select (cmpi .slt v (broadcastInDim S1600000 ![] Facts₀.bcast_S_S1600000 (constantI S_ 32 0#32)))
    (addi v (broadcastInDim S1600000 ![] Facts₀.bcast_S_S1600000 (constantI S_ 32 1600000#32))) v

/-- A flat word array read through an array of position words. -/
abbrev permuted (a v : IVec S1600000 32) : IVec S1600000 32 :=
  Host.gather gather_S1600000_S1600000x1_S1600000_n_0_n_n_0_1_1 a
    (broadcastInDim S1600000x1 ![0] Facts₀.bcast_S1600000_S1600000x1_0 (wrapE v))

/-- Where the position words are the words of `π`, the array read through them is the array after `π`. -/
theorem permuted_apply (a v : IVec S1600000 32) (π : Fin 1600000 → Fin 1600000)
    (hv : ∀ e, v (ix1 e) = BitVec.ofNat 32 (π e).val) (e : Fin 1600000) :
    permuted a v (ix1 e) = a (ix1 (π e)) := by
  refine (Cert.LibSegSum.gather_flat_apply (by norm_num) Facts₀.gather_S1600000_S1600000x1_S1600000_n_0_n_n_0_1_1_wf a _ e).trans ?_
  have hwr : wrapE v (ix1 e) = wrap 1600000#32 (v (ix1 e)) := wrapped_apply Facts₀.bcast_S_S1600000 1600000#32 v e
  rw [column_apply (by norm_num) Facts₀.bcast_S1600000_S1600000x1_0 _ e, hwr, hv e]
  have hw : wrap 1600000#32 (BitVec.ofNat 32 (π e).val) = BitVec.ofNat 32 (π e).val := by
    unfold wrap
    rw [Cert.LibSegSum.not_slt_zero_ofNat (by have := (π e).isLt; omega), select_zero]
  rw [hw, Cert.LibSegSum.rowOf_ofNat (by norm_num) (π e).isLt (by norm_num)]

/-- The aggregation chain over a table of `128` columns with both word arrays read through the words of a bijection. -/
theorem chain128_apply (T : FVec Ideal S100000x128 .f32) (a1 a2 v : IVec S1600000 32) (π : Fin 1600000 → Fin 1600000)
    (hπ : Function.Bijective π) (hv : ∀ e, v (ix1 e) = BitVec.ofNat 32 (π e).val) (n : Fin 100000) (k : Fin 128) :
    Host.scatterAdd scatter_S100000x128_S1600000x1_S1600000x128_1_0_0_1
        (broadcastInDim S100000x128 ![] Facts₀.bcast_S_S100000x128 (constant (F := Ideal) S_ .f32 0x00000000#32))
        (broadcastInDim S1600000x1 ![0] Facts₀.bcast_S1600000_S1600000x1_0 (permuted a2 v))
        (Host.gather gather_S100000x128_S1600000x1_S1600000x128_1_0_n_n_0_1_1128 T
          (broadcastInDim S1600000x1 ![0] Facts₀.bcast_S1600000_S1600000x1_0
            (select (cmpi .slt (permuted a1 v) (broadcastInDim S1600000 ![] Facts₀.bcast_S_S1600000 (constantI S_ 32 0#32)))
              (addi (permuted a1 v) (broadcastInDim S1600000 ![] Facts₀.bcast_S_S1600000 (constantI S_ 32 100000#32)))
              (permuted a1 v))))
        (ix2 n k)
      = agg (fun e => a1 (ix1 e)) (fun e => a2 (ix1 e)) (fun n d => T (ix2 n d)) n k := by
  refine (aggChain_apply (D := 128) Facts₀.scatter_S100000x128_S1600000x1_S1600000x128_1_0_0_1_wf
    Facts₀.gather_S100000x128_S1600000x1_S1600000x128_1_0_n_n_0_1_1128_wf Facts₀.bcast_S_S100000x128 Facts₀.bcast_S_S1600000
    Facts₀.bcast_S1600000_S1600000x1_0 T (permuted a1 v) (permuted a2 v) n k).trans ?_
  have h1 : (fun e => permuted a1 v (ix1 e)) = fun e => a1 (ix1 (π e)) := funext (permuted_apply a1 v π hv)
  have h2 : (fun e => permuted a2 v (ix1 e)) = fun e => a2 (ix1 (π e)) := funext (permuted_apply a2 v π hv)
  rw [h1, h2]
  exact agg_perm π hπ (fun e => a1 (ix1 e)) (fun e => a2 (ix1 e)) _ n k

/-! ## The host operations, read at a buffer from any contents -/

section Reads
variable (W : Valuation τ sig (Elt Ideal))

/-- The argsort's result: the second result of the stable sort of the destination words carrying the positions. -/
theorem ops0_v0 :
    StableHlo.after (hostOps0 (F := Ideal)) W (Proc.devRef .tc main_v0)
      = (Host.sort2 S1600000 0 comparator_i32_i32_d0 (W (Proc.devRef .tc main_arg2)) (iotaInDim S1600000 32 0)).2 := by
  after_results_simp
  simp only [Cert.LibTypedRef.ofBuf_toBuf]
  rfl

/-- The first aggregation's buffer: the chain over the input rows with the words read through the sorted positions. -/
theorem ops01_v24 :
    StableHlo.after (hostOps0_1 (F := Ideal)) W (Proc.devRef .tc main_v24)
      = Host.scatterAdd scatter_S100000x128_S1600000x1_S1600000x128_1_0_0_1
          (broadcastInDim S100000x128 ![] Facts₀.bcast_S_S100000x128 (constant (F := Ideal) S_ .f32 0x00000000#32))
          (broadcastInDim S1600000x1 ![0] Facts₀.bcast_S1600000_S1600000x1_0
            (permuted (W (Proc.devRef .tc main_arg2)) (W (Proc.devRef .tc main_v0))))
          (Host.gather gather_S100000x128_S1600000x1_S1600000x128_1_0_n_n_0_1_1128 (W (Proc.devRef .tc main_arg0))
            (broadcastInDim S1600000x1 ![0] Facts₀.bcast_S1600000_S1600000x1_0
              (select (cmpi .slt (permuted (W (Proc.devRef .tc main_arg1)) (W (Proc.devRef .tc main_v0)))
                  (broadcastInDim S1600000 ![] Facts₀.bcast_S_S1600000 (constantI S_ 32 0#32)))
                (addi (permuted (W (Proc.devRef .tc main_arg1)) (W (Proc.devRef .tc main_v0)))
                  (broadcastInDim S1600000 ![] Facts₀.bcast_S_S1600000 (constantI S_ 32 100000#32)))
                (permuted (W (Proc.devRef .tc main_arg1)) (W (Proc.devRef .tc main_v0)))))) := by
  after_results_simp <;> rfl

/-- The first bias reshaped to one row. -/
theorem ops01_v25 :
    StableHlo.after (hostOps0_1 (F := Ideal)) W (Proc.devRef .tc main_v25)
      = shapeCast S1x128 (W (Proc.devRef .tc main_arg5)) Facts₀.shapeCasts_S128_S1x128 := by
  after_results_simp <;> rfl

end Reads

/-! ## The contents at the first region's entry -/

section Entry0
variable (m : (ℓ : Loc nD τ sig) → Buf (Elt Ideal) ℓ) (ρ : Dev nD → PrngReg) (c : Dev nD)

/-- The input rows, the source words and the destination words of the launch memory, as plain functions. -/
abbrev X (n : Fin 100000) (k : Fin 128) : EReal := m ((c.tc : Thread nD τ).loc main_arg0) (ix2 n k)
abbrev src (e : Fin 1600000) : BitVec 32 := m ((c.tc : Thread nD τ).loc main_arg1) (ix1 e)
abbrev dst (e : Fin 1600000) : BitVec 32 := m ((c.tc : Thread nD τ).loc main_arg2) (ix1 e)

/-- After the argsort the arguments hold what they were launched with. -/
theorem W1_arg0 : W1 (F := Ideal) m ρ c (Proc.devRef .tc main_arg0) = m ((c.tc : Thread nD τ).loc main_arg0) := by
  show StableHlo.after hostOps0 (W0 m ρ c) (Proc.devRef .tc main_arg0) = _
  after_results_simp <;> rfl
theorem W1_arg1 : W1 (F := Ideal) m ρ c (Proc.devRef .tc main_arg1) = m ((c.tc : Thread nD τ).loc main_arg1) := by
  show StableHlo.after hostOps0 (W0 m ρ c) (Proc.devRef .tc main_arg1) = _
  after_results_simp <;> rfl
theorem W1_arg2 : W1 (F := Ideal) m ρ c (Proc.devRef .tc main_arg2) = m ((c.tc : Thread nD τ).loc main_arg2) := by
  show StableHlo.after hostOps0 (W0 m ρ c) (Proc.devRef .tc main_arg2) = _
  after_results_simp <;> rfl

/-- The sorted positions are the words of a bijection of the edges. -/
theorem W1_v0 : ∃ π : Fin 1600000 → Fin 1600000, Function.Bijective π ∧
    ∀ e, W1 (F := Ideal) m ρ c (Proc.devRef .tc main_v0) (ix1 e) = BitVec.ofNat 32 (π e).val := by
  obtain ⟨π, hπ, h⟩ := Cert.LibSegSum.sort2_iota_bijective comparator_i32_i32_d0
    (W0 (F := Ideal) m ρ c (Proc.devRef .tc main_arg2))
  exact ⟨π, hπ, fun e => (congrFun (ops0_v0 (W0 m ρ c)) (ix1 e)).trans (h e)⟩

/-- THE FIRST AGGREGATION AT `(n, k)`. -/
theorem entry0_agg (n : Fin 100000) (k : Fin 128) :
    V2 (F := Ideal) m ρ c main_v24 (ix2 n k) = agg (src m c) (dst m c) (X m c) n k := by
  obtain ⟨π, hπ, hv⟩ := W1_v0 m ρ c
  refine (congrFun (ops01_v24 (W1 m ρ c)) (ix2 n k)).trans ?_
  refine (chain128_apply _ _ _ _ π hπ hv n k).trans ?_
  rw [W1_arg0, W1_arg1, W1_arg2]

/-- The arrays the first region reads besides the aggregation hold what they were launched with. -/
theorem entry0_arg0 : V2 (F := Ideal) m ρ c main_arg0 = m ((c.tc : Thread nD τ).loc main_arg0) := by
  show StableHlo.after hostOps0_1 (StableHlo.after hostOps0 (W0 m ρ c)) (Proc.devRef .tc main_arg0) = _
  after_results_simp <;> rfl
theorem entry0_arg3 : V2 (F := Ideal) m ρ c main_arg3 = m ((c.tc : Thread nD τ).loc main_arg3) := by
  show StableHlo.after hostOps0_1 (StableHlo.after hostOps0 (W0 m ρ c)) (Proc.devRef .tc main_arg3) = _
  after_results_simp <;> rfl
theorem entry0_arg4 : V2 (F := Ideal) m ρ c main_arg4 = m ((c.tc : Thread nD τ).loc main_arg4) := by
  show StableHlo.after hostOps0_1 (StableHlo.after hostOps0 (W0 m ρ c)) (Proc.devRef .tc main_arg4) = _
  after_results_simp <;> rfl
theorem entry0_arg6 : V2 (F := Ideal) m ρ c main_arg6 = m ((c.tc : Thread nD τ).loc main_arg6) := by
  show StableHlo.after hostOps0_1 (StableHlo.after hostOps0 (W0 m ρ c)) (Proc.devRef .tc main_arg6) = _
  after_results_simp <;> rfl

theorem W1_arg5 : W1 (F := Ideal) m ρ c (Proc.devRef .tc main_arg5) = m ((c.tc : Thread nD τ).loc main_arg5) := by
  show StableHlo.after hostOps0 (W0 m ρ c) (Proc.devRef .tc main_arg5) = _
  after_results_simp <;> rfl

/-- The first bias, reshaped to one row, at `(0, j)`. -/
theorem entry0_bias (j : Fin 128) :
    V2 (F := Ideal) m ρ c main_v25 (ix2 (0 : Fin 1) j) = m ((c.tc : Thread nD τ).loc main_arg5) (ix1 j) := by
  refine (congrFun (ops01_v25 (W1 m ρ c)) (ix2 (0 : Fin 1) j)).trans ?_
  rw [W1_arg5]
  exact shapeCast_a_1a_apply _ Facts₀.shapeCasts_S128_S1x128 (0 : Fin 1) j

end Entry0

end Cert.Sage.KHost

end
-- ==== Proof.KernelHost2.lean ====
/-
  The host side of the kernel program between its two regions, read at an entry.

  The source and the destination words read through the sorted positions are not written by the first region, so at
  the second region's entry they are still `src ∘ π` and `dst ∘ π` for the bijection `π` of the edges the sort gives;
  the second aggregation is the same chain of host operations over the first region's second output, hence `agg` of
  that output with the launch words. The first region's first output and the arguments are not written between the
  regions, and a bias reshaped to one row is the bias.
-/
import proofs.«142519_j32504312496300_2_alg».proof.Proof.KernelHost

noncomputable section

namespace Cert.Sage.KHost

open Cert.KernelIdeal Cert.KernelIdeal.Gen Idealize.ShloMosaic Idealize.ShloMosaic.TcCoe Idealize.SL.Sem
open Idealize.ShloMosaic.StableHlo Idealize.ShloMosaic.ValueIdx

/-! ## More reads from any contents: the permuted words, and the operations between the regions -/

section Reads2
variable (W : Valuation τ sig (Elt Ideal))

/-- The destination words read through the sorted positions. -/
theorem ops01_v7 :
    StableHlo.after (hostOps0_1 (F := Ideal)) W (Proc.devRef .tc main_v7)
      = permuted (W (Proc.devRef .tc main_arg2)) (W (Proc.devRef .tc main_v0)) := by
  after_results_simp <;> rfl

/-- The source words read through the sorted positions. -/
theorem ops01_v14 :
    StableHlo.after (hostOps0_1 (F := Ideal)) W (Proc.devRef .tc main_v14)
      = permuted (W (Proc.devRef .tc main_arg1)) (W (Proc.devRef .tc main_v0)) := by
  after_results_simp <;> rfl

/-- The second aggregation's buffer: the chain over the first region's second output with the permuted words. -/
theorem ops1_v36 :
    StableHlo.after (hostOps1 (F := Ideal)) W (Proc.devRef .tc main_v36)
      = Host.scatterAdd scatter_S100000x8_S1600000x1_S1600000x8_1_0_0_1
          (broadcastInDim S100000x8 ![] Facts₀.bcast_S_S100000x8 (constant (F := Ideal) S_ .f32 0x00000000#32))
          (broadcastInDim S1600000x1 ![0] Facts₀.bcast_S1600000_S1600000x1_0 (W (Proc.devRef .tc main_v7)))
          (Host.gather gather_S100000x8_S1600000x1_S1600000x8_1_0_n_n_0_1_18 (W (Proc.devRef .tc main_v26_1))
            (broadcastInDim S1600000x1 ![0] Facts₀.bcast_S1600000_S1600000x1_0
              (select (cmpi .slt (W (Proc.devRef .tc main_v14))
                  (broadcastInDim S1600000 ![] Facts₀.bcast_S_S1600000 (constantI S_ 32 0#32)))
                (addi (W (Proc.devRef .tc main_v14))
                  (broadcastInDim S1600000 ![] Facts₀.bcast_S_S1600000 (constantI S_ 32 100000#32)))
                (W (Proc.devRef .tc main_v14))))) := by
  after_results_simp <;> rfl

/-- The second bias reshaped to one row. -/
theorem ops1_v37 :
    StableHlo.after (hostOps1 (F := Ideal)) W (Proc.devRef .tc main_v37)
      = shapeCast S1x8 (W (Proc.devRef .tc main_arg8)) Facts₀.shapeCasts_S8_S1x8 := by
  after_results_simp <;> rfl

/-- The operations between the regions write neither the first region's first output nor the arguments. -/
theorem ops1_v26_0 :
    StableHlo.after (hostOps1 (F := Ideal)) W (Proc.devRef .tc main_v26_0) = W (Proc.devRef .tc main_v26_0) := by
  after_results_simp <;> rfl
theorem ops1_arg7 :
    StableHlo.after (hostOps1 (F := Ideal)) W (Proc.devRef .tc main_arg7) = W (Proc.devRef .tc main_arg7) := by
  after_results_simp <;> rfl

end Reads2

/-! ## The contents at the second region's entry -/

section Entry1
variable (m : (ℓ : Loc nD τ sig) → Buf (Elt Ideal) ℓ) (ρ : Dev nD → PrngReg) (c : Dev nD)

/-- The first region writes neither the permuted words nor the arguments it does not take. -/
theorem W3_v7 : W3 (F := Ideal) m ρ c (Proc.devRef .tc main_v7)
    = permuted (W1 m ρ c (Proc.devRef .tc main_arg2)) (W1 m ρ c (Proc.devRef .tc main_v0)) :=
  (W3_of_ne m ρ c main_v7 (by decide)).trans (ops01_v7 (W1 m ρ c))
theorem W3_v14 : W3 (F := Ideal) m ρ c (Proc.devRef .tc main_v14)
    = permuted (W1 m ρ c (Proc.devRef .tc main_arg1)) (W1 m ρ c (Proc.devRef .tc main_v0)) :=
  (W3_of_ne m ρ c main_v14 (by decide)).trans (ops01_v14 (W1 m ρ c))
theorem W3_arg7 : W3 (F := Ideal) m ρ c (Proc.devRef .tc main_arg7) = m ((c.tc : Thread nD τ).loc main_arg7) := by
  refine (W3_of_ne m ρ c main_arg7 (by decide)).trans ?_
  show StableHlo.after hostOps0_1 (StableHlo.after hostOps0 (W0 m ρ c)) (Proc.devRef .tc main_arg7) = _
  after_results_simp <;> rfl
theorem W3_arg8 : W3 (F := Ideal) m ρ c (Proc.devRef .tc main_arg8) = m ((c.tc : Thread nD τ).loc main_arg8) := by
  refine (W3_of_ne m ρ c main_arg8 (by decide)).trans ?_
  show StableHlo.after hostOps0_1 (StableHlo.after hostOps0 (W0 m ρ c)) (Proc.devRef .tc main_arg8) = _
  after_results_simp <;> rfl

/-- THE SECOND AGGREGATION AT `(n, c')`: `agg` of the first region's second output. -/
theorem entry1_agg (n : Fin 100000) (c' : Fin 8) :
    V4 (F := Ideal) m ρ c main_v36 (ix2 n c')
      = agg (src m c) (dst m c) (fun n c2 => V3 (F := Ideal) m ρ c main_v26_1 (ix2 n c2)) n c' := by
  obtain ⟨π, hπ, hv⟩ := W1_v0 m ρ c
  refine (congrFun (ops1_v36 (W3 m ρ c)) (ix2 n c')).trans ?_
  refine (aggChain_apply (D := 8) Facts₀.scatter_S100000x8_S1600000x1_S1600000x8_1_0_0_1_wf
    Facts₀.gather_S100000x8_S1600000x1_S1600000x8_1_0_n_n_0_1_18_wf Facts₀.bcast_S_S100000x8 Facts₀.bcast_S_S1600000
    Facts₀.bcast_S1600000_S1600000x1_0 (W3 m ρ c (Proc.devRef .tc main_v26_1)) (W3 m ρ c (Proc.devRef .tc main_v14))
    (W3 m ρ c (Proc.devRef .tc main_v7)) n c').trans ?_
  have h1 : (fun e => W3 (F := Ideal) m ρ c (Proc.devRef .tc main_v14) (ix1 e)) = fun e => src m c (π e) := funext fun e => by
    rw [W3_v14, permuted_apply _ _ π hv e, W1_arg1]
  have h2 : (fun e => W3 (F := Ideal) m ρ c (Proc.devRef .tc main_v7) (ix1 e)) = fun e => dst m c (π e) := funext fun e => by
    rw [W3_v7, permuted_apply _ _ π hv e, W1_arg2]
  rw [h1, h2]
  exact agg_perm π hπ (src m c) (dst m c) _ n c'

/-- The first region's first output is as the region left it … -/
theorem entry1_v26_0 : V4 (F := Ideal) m ρ c main_v26_0 = V3 (F := Ideal) m ρ c main_v26_0 :=
  ops1_v26_0 (W3 m ρ c)

/-- … the second layer's neighbour weights hold what they were launched with … -/
theorem entry1_arg7 : V4 (F := Ideal) m ρ c main_arg7 = m ((c.tc : Thread nD τ).loc main_arg7) :=
  (ops1_arg7 (W3 m ρ c)).trans (W3_arg7 m ρ c)

/-- … and the second bias, reshaped to one row, at `(0, c')`. -/
theorem entry1_bias (c' : Fin 8) :
    V4 (F := Ideal) m ρ c main_v37 (ix2 (0 : Fin 1) c') = m ((c.tc : Thread nD τ).loc main_arg8) (ix1 c') := by
  refine (congrFun (ops1_v37 (W3 m ρ c)) (ix2 (0 : Fin 1) c')).trans ?_
  rw [W3_arg8]
  exact shapeCast_a_1a_apply _ Facts₀.shapeCasts_S8_S1x8 (0 : Fin 1) c'

end Entry1

end Cert.Sage.KHost

end
-- ==== Proof.LibRealLaw.lean ====
/- The real-number law behind a linear cross-attention, stated over the extended reals.

   At the ideal reading a float is an extended real.  Two programs compute, from real inputs
   `l e`, `g m e`, `v m`,

     reference:  ∑ m, ((∑ e, l e * g m e) / 1024) * v m
     kernel:     ∑ e, l e * ((∑ m, g m e * v m) * (1/1024))

   Over the reals these agree: distribute the constant and exchange the two finite sums.  Over the
   extended reals multiplication does not distribute over addition in general (`⊤ + ⊥`, `0 * ⊤`),
   so the law is stated for extended reals that are known to be (coercions of) real numbers, and
   proved by pulling the coercion `ℝ → EReal` outside every product and finite sum. -/
import Idealize.ShloMosaic.PureOps.Ideal

noncomputable section

open Idealize.ShloMosaic

namespace Cert.Attn.RealLaw

/-! ### Extended reals that are real numbers -/

/-- An extended real is *real* when it is the image of some real number, that is, it is neither
    `⊤` nor `⊥`. -/
def IsReal (x : EReal) : Prop := ∃ r : ℝ, x = (r : EReal)

/-- The image of a real number is real. -/
theorem isReal_coe (r : ℝ) : IsReal (r : EReal) := ⟨r, rfl⟩

/-- The product of two real extended reals is real: `↑a * ↑b = ↑(a * b)`. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The sum of two real extended reals is real: `↑a + ↑b = ↑(a + b)`. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The coercion `ℝ → EReal` commutes with a finite sum: the image of `∑ k ∈ s, f k` is the sum of
    the images. -/
theorem coe_sum {K : Type*} (s : Finset K) (f : K → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

variable {E M K : Type*} [Fintype E] [Fintype M] [Fintype K]

/-- A finite sum of real extended reals is real. -/
theorem isReal_sum {f : K → EReal} (hf : ∀ k, IsReal (f k)) : IsReal (∑ k, f k) := by
  choose f' hf' using hf
  refine ⟨∑ k, f' k, ?_⟩
  rw [coe_sum]
  exact Finset.sum_congr rfl fun k _ => hf' k

/-- A finite sum of products of real extended reals is real. -/
theorem isReal_sum_mul {a b : K → EReal} (ha : ∀ k, IsReal (a k)) (hb : ∀ k, IsReal (b k)) :
    IsReal (∑ k, a k * b k) :=
  isReal_sum fun k => isReal_mul (ha k) (hb k)

/-- The hyperbolic tangent of a real extended real is real: on the image of `r` it is the image of
    `Real.tanh r`. -/
theorem isReal_tanh {x : EReal} (hx : IsReal x) : IsReal (Ideal.tanh x) := by
  obtain ⟨r, rfl⟩ := hx
  exact ⟨Real.tanh r, Ideal.tanh_coe r⟩

/-! ### The two literals -/

/-- The single-precision pattern `0x3A800000` (sign `0`, exponent field `117`, significand field `0`)
    denotes `2 ^ (117 - 127) = 2 ^ (-10) = 1 / 1024`. -/
theorem inv_1024 : Ideal.ofBits .f32 0x3A800000#32 = (((1 / 1024 : ℝ)) : EReal) := by
  simp [Ideal.ofBits, Ideal.ieee, -EReal.coe_mul]; norm_num

/-- The single-precision pattern `0x44800000` (sign `0`, exponent field `137`, significand field `0`)
    denotes `2 ^ (137 - 127) = 2 ^ 10 = 1024`. -/
theorem lit_1024 : Ideal.ofBits .f32 0x44800000#32 = ((1024 : ℝ) : EReal) := by
  simp [Ideal.ofBits, Ideal.ieee, -EReal.coe_mul]; norm_num

/-! ### The law -/

/-- The reassociation law over the reals: for real numbers `l e`, `g m e`, `v m` over finite index
    types, `∑ m, ((∑ e, l e * g m e) * c) * v m = ∑ e, l e * ((∑ m, g m e * v m) * c)`.  Distribute
    the products over the inner sums, exchange the two sums, and compare term by term. -/
theorem reassoc_real (l : E → ℝ) (g : M → E → ℝ) (v : M → ℝ) (c : ℝ) :
    (∑ m, (∑ e, l e * g m e) * c * v m) = ∑ e, l e * ((∑ m, g m e * v m) * c) := by
  simp only [Finset.sum_mul, Finset.mul_sum]
  rw [Finset.sum_comm]
  refine Finset.sum_congr rfl fun e _ => Finset.sum_congr rfl fun m _ => ?_
  ring

/-- The reassociation law over the extended reals, for real entries: if every `l e`, `g m e` and
    `v m` is real then
    `∑ m, ((∑ e, l e * g m e) / 1024) * v m = ∑ e, l e * ((∑ m, g m e * v m) * (1/1024))`,
    where `/` is the ideal division.  Division by the nonzero real `1024` is multiplication by its
    reciprocal; then both sides are images of real numbers, equal by the law over the reals. -/
theorem reassoc (l : E → EReal) (g : M → E → EReal) (v : M → EReal)
    (hl : ∀ e, IsReal (l e)) (hg : ∀ m e, IsReal (g m e)) (hv : ∀ m, IsReal (v m)) :
    (∑ m, Ideal.div (∑ e, l e * g m e) ((1024 : ℝ) : EReal) * v m)
      = ∑ e, l e * ((∑ m, g m e * v m) * (((1 / 1024 : ℝ)) : EReal)) := by
  choose l' hl' using hl
  choose g' hg' using hg
  choose v' hv' using hv
  have h1024 : (1024 : ℝ) ≠ 0 := by norm_num
  simp only [hl', hg', hv', Ideal.div_coe h1024, ← EReal.coe_mul, ← coe_sum]
  exact congrArg _ (reassoc_real l' g' v' (1 / 1024))

/-- The same law with a common additive tail `x` (any extended real) on both sides. -/
theorem reassoc_add (l : E → EReal) (g : M → E → EReal) (v : M → EReal)
    (hl : ∀ e, IsReal (l e)) (hg : ∀ m e, IsReal (g m e)) (hv : ∀ m, IsReal (v m)) (x : EReal) :
    (∑ m, Ideal.div (∑ e, l e * g m e) ((1024 : ℝ) : EReal) * v m) + x
      = (∑ e, l e * ((∑ m, g m e * v m) * (((1 / 1024 : ℝ)) : EReal))) + x :=
  congrArg (· + x) (reassoc l g v hl hg hv)

end Cert.Attn.RealLaw

end
-- ==== Proof.SegAlgebra.lean ====
/-
  The one law that joins the two programs' second layers, and the finiteness it needs.

  The reference aggregates the hidden rows and then multiplies by the `128 × 8` matrix; the kernel multiplies the
  hidden rows by the matrix first and aggregates the eight-wide products. A sum over edges commutes with the
  multiplication by a matrix, `∑ₖ (∑ₑ a e k) · w k = ∑ₑ ∑ₖ a e k · w k`, when every entry is a real number (on the
  extended reals the product does not distribute over `⊤ + ⊥`). The hidden rows are real when the inputs are: sums and
  products of reals are real, and so is the larger of two reals.
-/
import Idealize.ShloMosaic.PureOps.Ideal.Laws
import proofs.«142519_j32504312496300_2_alg».proof.Proof.Spec
import proofs.«142519_j32504312496300_2_alg».proof.Proof.LibRealLaw

noncomputable section

namespace Cert.Sage

open Idealize.ShloMosaic Idealize.ShloMosaic.ValueIdx Cert.Attn.RealLaw

/-- Zero is real. -/
theorem isReal_zeroF : IsReal zeroF := ⟨0, by unfold zeroF; rw [Ideal.ofBits_zero_f32]; rfl⟩

/-- The larger of two reals is real. -/
theorem isReal_max {x y : EReal} (hx : IsReal x) (hy : IsReal y) : IsReal (max x y) := by
  rcases le_total x y with h | h
  · rw [max_eq_right h]; exact hy
  · rw [max_eq_left h]; exact hx

/-- A sum over the edges into a node of real terms is real. -/
theorem isReal_seg (dst : Fin 1600000 → BitVec 32) (u : Fin 1600000 → EReal) (hu : ∀ e, IsReal (u e))
    (n : Fin 100000) : IsReal (seg dst u n) := by
  unfold seg
  refine isReal_sum fun e => ?_
  split
  · exact hu e
  · exact ⟨0, rfl⟩

/-- An aggregation of a real table is real. -/
theorem isReal_agg {D : Nat} (src dst : Fin 1600000 → BitVec 32) (T : Fin 100000 → Fin D → EReal)
    (hT : ∀ n d, IsReal (T n d)) (n : Fin 100000) (d : Fin D) : IsReal (agg src dst T n d) :=
  isReal_add isReal_zeroF (isReal_seg dst _ (fun e => hT _ d) n)

/-- The hidden layer of real inputs is real. -/
theorem isReal_hid (A X : Fin 100000 → Fin 128 → EReal) (Wn Ws : Mat 128 128) (b : Fin 128 → EReal)
    (hA : ∀ n k, IsReal (A n k)) (hX : ∀ n k, IsReal (X n k)) (hWn : ∀ i, IsReal (Wn i)) (hWs : ∀ i, IsReal (Ws i))
    (hb : ∀ j, IsReal (b j)) (n : Fin 100000) (j : Fin 128) : IsReal (hid A X Wn Ws b n j) :=
  isReal_max (isReal_add (isReal_add (isReal_sum_mul (fun k => hA n k) (fun k => hWn _))
    (isReal_sum_mul (fun k => hX n k) (fun k => hWs _))) (hb j)) isReal_zeroF

/-- Over the reals: a guarded sum over edges commutes with the multiplication by a column. -/
theorem real_seg_mul {E K : Type} [Fintype E] [Fintype K] (p : E → Prop) [DecidablePred p] (a : E → K → ℝ) (w : K → ℝ) :
    (∑ k, (0 + ∑ e, if p e then a e k else 0) * w k) = 0 + ∑ e, if p e then ∑ k, a e k * w k else 0 := by
  simp only [zero_add, Finset.sum_mul]
  rw [Finset.sum_comm]
  refine Finset.sum_congr rfl fun e _ => ?_
  split_ifs
  · rfl
  · simp

/-- THE LAW: aggregating and then multiplying by a real matrix is multiplying and then aggregating, on real rows. -/
theorem proj_agg (src dst : Fin 1600000 → BitVec 32) (H : Fin 100000 → Fin 128 → EReal) (W : Mat 128 8)
    (hH : ∀ n k, IsReal (H n k)) (hW : ∀ i, IsReal (W i)) (n : Fin 100000) (c : Fin 8) :
    proj (agg src dst H) W n c = agg src dst (proj H W) n c := by
  choose h' hh' using hH
  choose w' hw' using hW
  have hz : zeroF = ((0 : ℝ) : EReal) := by unfold zeroF; rw [Ideal.ofBits_zero_f32]; rfl
  have ite_coe : ∀ (p : Prop) [Decidable p] (r : ℝ), (if p then (r : EReal) else 0) = ((if p then r else 0 : ℝ) : EReal) := by
    intro p _ r; split <;> rfl
  unfold proj agg seg
  simp only [hh', hw', hz, ite_coe, ← EReal.coe_mul, ← coe_sum, ← EReal.coe_add]
  exact congrArg _ (real_seg_mul (fun e => (dst e).toInt = (n.val : Int)) (fun e k => h' (srcRow src e) k)
    (fun k => w' (ix2 k c)))

/-- The two groupings of the second layer agree on real hidden rows and a real matrix. -/
theorem logits_eq (src dst : Fin 1600000 → BitVec 32) (H : Fin 100000 → Fin 128 → EReal) (Wn Ws : Mat 128 8)
    (b : Fin 8 → EReal) (hH : ∀ n k, IsReal (H n k)) (hW : ∀ i, IsReal (Wn i)) (n : Fin 100000) (c : Fin 8) :
    logitsK (agg src dst (proj H Wn)) H Ws b n c = logitsR (agg src dst H) H Wn Ws b n c := by
  unfold logitsK logitsR
  rw [proj_agg src dst H Wn hH hW n c, add_comm (proj H Ws n c)]

end Cert.Sage

end
-- ==== Proof.Finite.lean ====
/-
  FINITENESS, READ BACK FROM THE PRECONDITION. The precondition is a printed predicate: the conjunction of seven tests
  all(|x| < +∞), one per float argument array, required to be 1. At extended reals |x| is max x (-x) and the pattern
  0x7F800000 denotes ⊤, so a test that holds says each entry of its array is neither ⊤ nor ⊥: a real number.
-/
import proofs.«142519_j32504312496300_2_alg».proof.Defs
import proofs.«142519_j32504312496300_2_alg».proof.Proof.Gen.Pre_finite_inputs
import Idealize.ShloMosaic.Lib.ReduceAll
import Idealize.ShloMosaic.Lib.ValueIdx

noncomputable section

namespace Cert.Sage.Finite

open Idealize.ShloMosaic Idealize.SL.Sem
open Cert.Pre_finite_inputs (S_)

/-- The shape of rank 0 has exactly one index. -/
instance : Subsingleton S_.Idx := ⟨fun a b => funext fun d => d.elim0⟩

/-- The f32 pattern 0x7F800000 denotes +∞. -/
theorem inf_eq_top : Ideal.ofBits .f32 0x7F800000#32 = (⊤ : EReal) := by simp [Ideal.ofBits, Ideal.ieee]

/-- An extended real x with |x| = max x (-x) strictly below +∞ is neither ⊤ nor ⊥: it is a real number. -/
theorem real_of_abs_lt_inf (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

/-- all(|x| < +∞), printed as a reduction by `and` from 1 of the elementwise comparison against the broadcast
    constant +∞, says that every entry of x is a real number. -/
theorem all_finite {s : Shape} {axes : List (Fin s.rank)} (x : FVec Ideal s .f32)
    (hb : S_.BroadcastsInDim s (![] : Fin 0 → Fin s.rank)) (hr : s.ReducesTo axes S_) (h0 : 0 < S_.numel) (j : S_.Idx)
    (h : Host.reduce IntOp.andi (cmpf .olt (Host.absf x) (broadcastInDim s ![] hb (constant S_ .f32 0x7F800000#32)))
          (constantI S_ 1 1#1) hr h0 j = 1#1) (i : s.Idx) : ∃ r : ℝ, x i = (r : EReal) :=
  real_of_abs_lt_inf (x i) (Host.reduce_andi_all _ _ hr h0 j h i)

/-- THE PRECONDITION DECODED: on every device, every entry of each of the seven float argument arrays is a real
    number. The printed predicate is the conjunction of seven tests all(|x| < +∞), one per float array; the result
    being 1 at its one index gives each test by `IntOp.andi_eq_one`, and each test gives its array's entries by
    `all_finite`. -/
theorem real_of_pre (m : (l : Loc Cert.KernelIdeal.nD Cert.KernelIdeal.τ Cert.KernelIdeal.sig) → Buf (Elt Ideal) l)
    (h : Cert.Pre_KernelIdeal (hPre_finite_inputs := Cert.Pre_finite_inputs.Gen.facts) m) (c : Dev Cert.KernelIdeal.nD) :
      (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal)) := by
  have e := congrFun (h c) ValueIdx.ix0
  dsimp only [Cert.Pre_finite_inputs.fn, Cert.Pre_finite_inputs.fn_part1, andi] at e
  simp only [IntOp.andi_eq_one] at e
  obtain ⟨⟨⟨⟨⟨⟨h0, h3⟩, h4⟩, h5⟩, h6⟩, h7⟩, h8⟩ := e
  exact ⟨fun i => all_finite _ _ _ _ _ h0 i, fun i => all_finite _ _ _ _ _ h3 i, fun i => all_finite _ _ _ _ _ h4 i,
    fun i => all_finite _ _ _ _ _ h5 i, fun i => all_finite _ _ _ _ _ h6 i, fun i => all_finite _ _ _ _ _ h7 i,
    fun i => all_finite _ _ _ _ _ h8 i⟩

end Cert.Sage.Finite

end
-- ==== Proof.Bridge.lean ====
/-
  The idealized kernel's result, entry by entry, is the specification's network.

  The first region finds, at its entry, the first aggregation of the input rows (the edges permuted by the argsort, which
  a sum does not see) and leaves the hidden rows and their eight-wide products with the second layer's neighbour matrix;
  the host aggregates the products; the second region adds the hidden rows' products with the self matrix and the bias
  and takes the logarithm of the softmax of each row. The reference aggregates the hidden rows and multiplies afterwards:
  the two agree because every entry is a real number when the inputs are finite.
-/
import proofs.«142519_j32504312496300_2_alg».proof.Proof.Region0
import proofs.«142519_j32504312496300_2_alg».proof.Proof.Region1
import proofs.«142519_j32504312496300_2_alg».proof.Proof.KernelHost2
import proofs.«142519_j32504312496300_2_alg».proof.Proof.SegAlgebra
import proofs.«142519_j32504312496300_2_alg».proof.Proof.Finite

noncomputable section

namespace Cert.Sage.Bridge

open Cert.KernelIdeal Cert.KernelIdeal.Gen Idealize.ShloMosaic Idealize.ShloMosaic.TcCoe Idealize.SL.Sem
open Idealize.ShloMosaic.ValueIdx Cert.Sage Cert.Attn.RealLaw

variable (m : (ℓ : Loc nD τ sig) → Buf (Elt Ideal) ℓ) (ρ : Dev nD → PrngReg) (c : Dev nD)

/-- The hidden rows of the specification, of the launch contents. -/
abbrev Hk : Fin 100000 → Fin 128 → EReal :=
  hid (agg (KHost.src m c) (KHost.dst m c) (KHost.X m c)) (KHost.X m c)
    (m ((c.tc : Thread nD τ).loc main_arg3)) (m ((c.tc : Thread nD τ).loc main_arg4))
    (fun j => m ((c.tc : Thread nD τ).loc main_arg5) (ix1 j))

/-- The second layer's bias as a function. -/
abbrev bias2 : Fin 8 → EReal := fun g => m ((c.tc : Thread nD τ).loc main_arg8) (ix1 g)

/-- The first region leaves the hidden rows … -/
theorem hid_exit (n : Fin 100000) (k : Fin 128) : V3 (F := Ideal) m ρ c main_v26_0 (ix2 n k) = Hk m c n k := by
  have e : V3 (F := Ideal) m ρ c main_v26_0 = (dat0 (F := Ideal) (V2 m ρ) c).arrAt 6 cfg0.N := W3_arr m ρ c 6
  have ea : (fun n k => V2 (F := Ideal) m ρ c main_v24 (ix2 n k)) = agg (KHost.src m c) (KHost.dst m c) (KHost.X m c) :=
    funext fun n => funext fun k => KHost.entry0_agg m ρ c n k
  have eb : (fun g => V2 (F := Ideal) m ρ c main_v25 (ix2 (0 : Fin 1) g))
      = fun j => m ((c.tc : Thread nD τ).loc main_arg5) (ix1 j) := funext fun g => KHost.entry0_bias m ρ c g
  rw [e, Regions.region0_hid (V2 m ρ) c n k, ea, eb, KHost.entry0_arg0 m ρ c, KHost.entry0_arg3 m ρ c,
    KHost.entry0_arg4 m ρ c]

/-- … and their products with the neighbour matrix. -/
theorem proj_exit (n : Fin 100000) (c' : Fin 8) :
    V3 (F := Ideal) m ρ c main_v26_1 (ix2 n c') = proj (Hk m c) (m ((c.tc : Thread nD τ).loc main_arg6)) n c' := by
  have e : V3 (F := Ideal) m ρ c main_v26_1 = (dat0 (F := Ideal) (V2 m ρ) c).arrAt 7 cfg0.N := W3_arr m ρ c 7
  have ea : (fun n k => V2 (F := Ideal) m ρ c main_v24 (ix2 n k)) = agg (KHost.src m c) (KHost.dst m c) (KHost.X m c) :=
    funext fun n => funext fun k => KHost.entry0_agg m ρ c n k
  have eb : (fun g => V2 (F := Ideal) m ρ c main_v25 (ix2 (0 : Fin 1) g))
      = fun j => m ((c.tc : Thread nD τ).loc main_arg5) (ix1 j) := funext fun g => KHost.entry0_bias m ρ c g
  rw [e, Regions.region0_proj (V2 m ρ) c n c', ea, eb, KHost.entry0_arg0 m ρ c, KHost.entry0_arg3 m ρ c,
    KHost.entry0_arg4 m ρ c, KHost.entry0_arg6 m ρ c]

/-- The kernel's result at `(n, c')`, as the kernel groups the second layer. -/
theorem result_kernel (n : Fin 100000) (c' : Fin 8) :
    W5 (F := Ideal) m ρ c (Proc.devRef .tc main_v38) (ix2 n c')
      = lsm (logitsK (agg (KHost.src m c) (KHost.dst m c) (proj (Hk m c) (m ((c.tc : Thread nD τ).loc main_arg6))))
          (Hk m c) (m ((c.tc : Thread nD τ).loc main_arg7)) (bias2 m c) n) c' := by
  have e : W5 (F := Ideal) m ρ c (Proc.devRef .tc main_v38) = (dat1 (F := Ideal) (V4 m ρ) c).arrAt 4 cfg1.N :=
    W5_arr m ρ c 4
  have ep : (fun n g => V3 (F := Ideal) m ρ c main_v26_1 (ix2 n g))
      = proj (Hk m c) (m ((c.tc : Thread nD τ).loc main_arg6)) :=
    funext fun n => funext fun g => proj_exit m ρ c n g
  have ea : (fun n g => V4 (F := Ideal) m ρ c main_v36 (ix2 n g))
      = agg (KHost.src m c) (KHost.dst m c) (proj (Hk m c) (m ((c.tc : Thread nD τ).loc main_arg6))) :=
    funext fun n => funext fun g => (KHost.entry1_agg m ρ c n g).trans (by rw [ep])
  have eh : (fun n k => V4 (F := Ideal) m ρ c main_v26_0 (ix2 n k)) = Hk m c :=
    funext fun n => funext fun k => by rw [KHost.entry1_v26_0 m ρ c]; exact hid_exit m ρ c n k
  have eb : (fun g => V4 (F := Ideal) m ρ c main_v37 (ix2 (0 : Fin 1) g)) = bias2 m c :=
    funext fun g => KHost.entry1_bias m ρ c g
  rw [e, Regions.region1_lsm (V4 m ρ) c n c', ea, eh, eb, KHost.entry1_arg7 m ρ c]

/-- Under the precondition the hidden rows are real. -/
theorem isReal_Hk (hpre : Cert.Pre_KernelIdeal (hPre_finite_inputs := Cert.Pre_finite_inputs.Gen.facts) m)
    (n : Fin 100000) (k : Fin 128) : IsReal (Hk m c n k) := by
  obtain ⟨h0, h3, h4, h5, -, -, -⟩ := Cert.Sage.Finite.real_of_pre m hpre c
  exact isReal_hid _ _ _ _ _ (isReal_agg _ _ _ (fun n d => h0 _)) (fun n k => h0 _) (fun i => h3 i) (fun i => h4 i)
    (fun j => h5 _) n k

/-- THE KERNEL'S RESULT AT `(n, c')`, as the reference groups the second layer. -/
theorem result_apply (hpre : Cert.Pre_KernelIdeal (hPre_finite_inputs := Cert.Pre_finite_inputs.Gen.facts) m)
    (n : Fin 100000) (c' : Fin 8) :
    W5 (F := Ideal) m ρ c (Proc.devRef .tc main_v38) (ix2 n c')
      = lsm (logitsR (agg (KHost.src m c) (KHost.dst m c) (Hk m c)) (Hk m c)
          (m ((c.tc : Thread nD τ).loc main_arg6)) (m ((c.tc : Thread nD τ).loc main_arg7)) (bias2 m c) n) c' := by
  obtain ⟨-, -, -, -, h6, -, -⟩ := Cert.Sage.Finite.real_of_pre m hpre c
  rw [result_kernel m ρ c n c']
  refine congrArg (fun l => lsm l c') (funext fun g => ?_)
  exact logits_eq _ _ _ _ _ _ (isReal_Hk m c hpre) (fun i => h6 i) n g

end Cert.Sage.Bridge

end
-- ==== Proof.lean ====
/-
  The certificate of a two-layer graph network with sum aggregation against its jnp reference, on the extended reals.

  Both programs aggregate neighbour rows with a gather and an adding scatter on the host. The kernel first sorts the
  edges by destination, which permutes the terms of each sum and changes no sum; it computes the hidden layer
  `max ((agg x) · Wₙ + x · Wₛ + b) 0` in a first region that also leaves the hidden rows' products with the second layer's
  neighbour matrix, aggregates those eight-wide products on the host, and in a second region adds the hidden rows'
  products with the self matrix and the bias and takes the logarithm of the softmax of each row. The reference aggregates
  the hidden rows and multiplies afterwards. Aggregation commutes with the multiplication by a matrix when every entry is a
  real number, which the precondition (every float input finite) gives: sums, products and maxima of reals are real.

  The frames of the two kernel programs are the generated ones; the reference's frame is its run with the result dropped;
  nothing was rewritten by the idealization, so there is nothing to preserve. For the value claim the kernel's run names
  its result as the contents the last region's write-backs leave (`KernelRun`), which `Bridge` reads entry by entry as the
  specification's network, and `RefSpec` reads the reference's run the same way.
-/
import proofs.«142519_j32504312496300_2_alg».proof.Defs
import proofs.«142519_j32504312496300_2_alg».proof.Proof.Gen.Kernel
import proofs.«142519_j32504312496300_2_alg».proof.Proof.Gen.Kernel.Skeleton
import proofs.«142519_j32504312496300_2_alg».proof.Proof.Gen.Kernel.Launch
import proofs.«142519_j32504312496300_2_alg».proof.Proof.Gen.Kernel.Points
import proofs.«142519_j32504312496300_2_alg».proof.Proof.Gen.Kernel.Frame
import proofs.«142519_j32504312496300_2_alg».proof.Proof.Gen.KernelIdeal
import proofs.«142519_j32504312496300_2_alg».proof.Proof.Gen.KernelIdeal.Skeleton
import proofs.«142519_j32504312496300_2_alg».proof.Proof.Gen.KernelIdeal.Launch
import proofs.«142519_j32504312496300_2_alg».proof.Proof.Gen.KernelIdeal.Points
import proofs.«142519_j32504312496300_2_alg».proof.Proof.Gen.KernelIdeal.Frame
import proofs.«142519_j32504312496300_2_alg».proof.Proof.Gen.ReferenceIdeal
import proofs.«142519_j32504312496300_2_alg».proof.Proof.Gen.Pre_finite_inputs
import proofs.«142519_j32504312496300_2_alg».proof.Proof.RefRun
import proofs.«142519_j32504312496300_2_alg».proof.Proof.RefRead
import proofs.«142519_j32504312496300_2_alg».proof.Proof.RefSpec
import proofs.«142519_j32504312496300_2_alg».proof.Proof.KernelRun
import proofs.«142519_j32504312496300_2_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the arguments both programs end with the same result array: entry `(n, g)` of either is
    the logarithm of the softmax of the specification's second layer at node `n`. -/
theorem algebraic : Cert.algebraic_KernelIdeal_ReferenceIdeal := by
  intro m ρ m' ρ' hpre hagree
  refine ⟨fun c => Cert.KernelIdeal.Gen.W5 (F := Ideal) m ρ c (Proc.devRef .tc Cert.KernelIdeal.main_v38),
    Cert.Sage.KRun.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8⟩ := hagree c
  rw [Cert.ReferenceIdeal.ReadP.val_main_v33_eq, a0, a1, a2, a3, a4, a5, a6, a7, a8]
  funext i
  obtain ⟨n, g, rfl⟩ : ∃ (n : Fin 100000) (g : Fin 8), i = ValueIdx.ix2 n g := ⟨i 0, i 1, ValueIdx.eq_ix2 i⟩
  rw [Cert.Sage.Ref.result_apply]
  exact (Cert.Sage.Bridge.result_apply m ρ c hpre n g).symm

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
